-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256 .f32) (main_arg5 : FVec F S256x256 .f32) (main_arg6 : FVec F S256 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8x256x64x64 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S1 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8x256x64x64 : Shape := ⟨4, ![8, 256, 64, 64]⟩
abbrev S256x256 : Shape := ⟨2, ![256, 256]⟩
abbrev S256 : Shape := ⟨1, ![256]⟩
abbrev S1 : Shape := ⟨1, ![1]⟩
abbrev S8x256x4096 : Shape := ⟨3, ![8, 256, 4096]⟩
abbrev S1x256 : Shape := ⟨2, ![1, 256]⟩
abbrev S1x1 : Shape := ⟨2, ![1, 1]⟩
abbrev S1x256x4096 : Shape := ⟨3, ![1, 256, 4096]⟩
abbrev S1x256x256 : Shape := ⟨3, ![1, 256, 256]⟩
abbrev S4096x256 : Shape := ⟨2, ![4096, 256]⟩
abbrev S1x256x1024 : Shape := ⟨3, ![1, 256, 1024]⟩
abbrev S256x1024 : Shape := ⟨2, ![256, 1024]⟩
abbrev S1024x256 : Shape := ⟨2, ![1024, 256]⟩
abbrev S256x4096 : Shape := ⟨2, ![256, 4096]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x256x64x64, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S8x256x4096, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x1, .f32⟩
  | .hbm, ⟨13, _⟩ => ⟨S8x256x4096, .f32⟩
  | .hbm, ⟨14, _⟩ => ⟨S8x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x1, .f32⟩
  | .local _ .vmem, ⟨9, _⟩ => ⟨S1x256x256, .f32⟩
  | .local _ .vmem, ⟨10, _⟩ => ⟨S1x256x256, .f32⟩
  | .local _ .vmem, ⟨11, _⟩ => ⟨S4096x256, .bf16⟩
  | .local _ .vmem, ⟨12, _⟩ => ⟨S4096x256, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let c0_1 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S8x256x64x64_S8x256x4096 : S8x256x64x64.ShapeCasts S8x256x4096
  shapeCasts_S256_S1x256 : S256.ShapeCasts S1x256
  shapeCasts_S1_S1x1 : S1.ShapeCasts S1x1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x256x4096_S1x256x1024_0_0_0 : ∀ a, (![0, 0, 0] : Fin 3 → Nat) a + S1x256x1024.size a ≤ S1x256x4096.size a
  h_S1x256x1024 : 0 < S1x256x1024.numel
  shapeCasts_S1x256x1024_S256x1024 : S1x256x1024.ShapeCasts S256x1024
  broadcasts_S1x256_S1024x256 : S1x256.Broadcasts S1024x256
  inb_S4096x256_S1024x256_0_0 : ∀ a, (![0, 0] : Fin 2 → Nat) a + S1024x256.size a ≤ S4096x256.size a
  h_S1024x256 : 0 < S1024x256.numel
  shapeCasts_S1024x256_S1024x256 : S1024x256.ShapeCasts S1024x256
  packedbf16_S4096x256_S1024x256_0_0 : (Rect.unit (s := S4096x256) ![0, 0] S1024x256.size inb_S4096x256_S1024x256_0_0).PackedRows (EltTy.packing .bf16)
  inb_S1x256x4096_S1x256x1024_0_0_1024 : ∀ a, (![0, 0, 1024] : Fin 3 → Nat) a + S1x256x1024.size a ≤ S1x256x4096.size a
  inb_S4096x256_S1024x256_1024_0 : ∀ a, (![1024, 0] : Fin 2 → Nat) a + S1024x256.size a ≤ S4096x256.size a
  packedbf16_S4096x256_S1024x256_1024_0 : (Rect.unit (s := S4096x256) ![1024, 0] S1024x256.size inb_S4096x256_S1024x256_1024_0).PackedRows (EltTy.packing .bf16)
  inb_S1x256x4096_S1x256x1024_0_0_2048 : ∀ a, (![0, 0, 2048] : Fin 3 → Nat) a + S1x256x1024.size a ≤ S1x256x4096.size a
  inb_S4096x256_S1024x256_2048_0 : ∀ a, (![2048, 0] : Fin 2 → Nat) a + S1024x256.size a ≤ S4096x256.size a
  packedbf16_S4096x256_S1024x256_2048_0 : (Rect.unit (s := S4096x256) ![2048, 0] S1024x256.size inb_S4096x256_S1024x256_2048_0).PackedRows (EltTy.packing .bf16)
  inb_S1x256x4096_S1x256x1024_0_0_3072 : ∀ a, (![0, 0, 3072] : Fin 3 → Nat) a + S1x256x1024.size a ≤ S1x256x4096.size a
  inb_S4096x256_S1024x256_3072_0 : ∀ a, (![3072, 0] : Fin 2 → Nat) a + S1024x256.size a ≤ S4096x256.size a
  packedbf16_S4096x256_S1024x256_3072_0 : (Rect.unit (s := S4096x256) ![3072, 0] S1024x256.size inb_S4096x256_S1024x256_3072_0).PackedRows (EltTy.packing .bf16)
  h_S1x256x256 : 0 < S1x256x256.numel
  shapeCasts_S1x256x256_S256x256 : S1x256x256.ShapeCasts S256x256
  broadcasts_S1x256_S256x256 : S1x256.Broadcasts S256x256
  inb_S4096x256_S4096x256_0_0 : ∀ a, (![0, 0] : Fin 2 → Nat) a + S4096x256.size a ≤ S4096x256.size a
  h_S4096x256 : 0 < S4096x256.numel
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  transposes_S256x256_p1_0_S256x256 : S256x256.Transposes [1, 0] S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x256 : S1x1.Broadcasts S256x256
  inb_S1x256x256_S1x256x256_0_0_0 : ∀ a, (![0, 0, 0] : Fin 3 → Nat) a + S1x256x256.size a ≤ S1x256x256.size a
  shapeCasts_S256x256_S1x256x256 : S256x256.ShapeCasts S1x256x256
  shapeCasts_S8x256x4096_S8x256x64x64 : S8x256x4096.ShapeCasts S8x256x64x64
  dot_S256x1024_S256x256_S1024x256_0_1_1_0_n_n_wf : DotDims.WF S256x1024 S256x256 S1024x256 [0] [1] [1] [0] [] []
  dot_S256x256_S256x256_S256x256_0_1_1_0_n_n_wf : DotDims.WF S256x256 S256x256 S256x256 [0] [1] [1] [0] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x4096.size a
  hwx0_0 : ∀ i : grid0.Coords, EltTy.bits .f32 = 32 ∨ (Rect.block (s := S8x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S8x256x4096.size a
  hwx0_8 : ∀ i : grid0.Coords, EltTy.bits .f32 = 32 ∨ (Rect.block (s := S8x256x4096) S1x256x256.size (cc0_transform_8 i) (hinb0_8 i)).WholeWords (EltTy.packing .f32)

variable [Facts₀]

def dot_S256x1024_S256x256_S1024x256_0_1_1_0_n_n : DotDims S256x1024 S256x256 S1024x256 where
  lhsContracting := [0]
  rhsContracting := [1]
  lhsNonContracting := [1]
  rhsNonContracting := [0]
  lhsBatch := []
  rhsBatch := []
  wf := dot_S256x1024_S256x256_S1024x256_0_1_1_0_n_n_wf
def dot_S256x256_S256x256_S256x256_0_1_1_0_n_n : DotDims S256x256 S256x256 S256x256 where
  lhsContracting := [0]
  rhsContracting := [1]
  lhsNonContracting := [1]
  rhsNonContracting := [0]
  lhsBatch := []
  rhsBatch := []
  wf := dot_S256x256_S256x256_S256x256_0_1_1_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S256x256 : Shape := ⟨2, ![256, 256]⟩
abbrev S256 : Shape := ⟨1, ![256]⟩
abbrev S1 : Shape := ⟨1, ![1]⟩
abbrev S8x256x4096 : Shape := ⟨3, ![8, 256, 4096]⟩
abbrev S8x4096x256 : Shape := ⟨3, ![8, 4096, 256]⟩
abbrev S1x1x256 : Shape := ⟨3, ![1, 1, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S8x256x4096, .f32⟩
  | .hbm, ⟨9, _⟩ => ⟨S8x4096x256, .f32⟩
  | .hbm, ⟨10, _⟩ => ⟨S8x4096x256, .f32⟩
  | .hbm, ⟨11, _⟩ => ⟨S1x1x256, .f32⟩
  | .hbm, ⟨12, _⟩ => ⟨S8x4096x256, .f32⟩
  | .hbm, ⟨13, _⟩ => ⟨S8x4096x256, .f32⟩
  | .hbm, ⟨14, _⟩ => ⟨S8x4096x256, .f32⟩
  | .hbm, ⟨15, _⟩ => ⟨S1x1x256, .f32⟩
  | .hbm, ⟨16, _⟩ => ⟨S8x4096x256, .f32⟩
  | .hbm, ⟨17, _⟩ => ⟨S8x4096x256, .f32⟩
  | .hbm, ⟨18, _⟩ => ⟨S8x4096x256, .f32⟩
  | .hbm, ⟨19, _⟩ => ⟨S1x1x256, .f32⟩
  | .hbm, ⟨20, _⟩ => ⟨S8x4096x256, .f32⟩
  | .hbm, ⟨21, _⟩ => ⟨S8x4096x256, .f32⟩
  | .hbm, ⟨22, _⟩ => ⟨S8x4096x4096, .f32⟩
  | .hbm, ⟨23, _⟩ => ⟨S_, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x256, .f32⟩
  | .hbm, ⟨42, _⟩ => ⟨S8x256x4096, .f32⟩
  | .hbm, ⟨43, _⟩ => ⟨S8x256x64x64, .f32⟩
  | .hbm, ⟨44, _⟩ => ⟨S_, .f32⟩
  | .hbm, ⟨45, _⟩ => ⟨S8x256x64x64, .f32⟩
  | .hbm, ⟨46, _⟩ => ⟨S8x256x64x64, .f32⟩
  | .hbm, ⟨47, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x256_S8x256x4096_0_2_1 : S8x4096x256.Transposes [0, 2, 1] S8x256x4096
  shapeCasts_S8x256x4096_S8x256x64x64 : S8x256x4096.ShapeCasts S8x256x64x64
  shapeCasts_S1_S_ : S1.ShapeCasts S_
  bcast_S_S8x256x64x64 : S_.BroadcastsInDim S8x256x64x64 (![] : Fin 0 → Fin S8x256x64x64.rank)
  dot_S8x4096x256_S256x256_S8x4096x256_2_1_01_0_n_n_wf : DotDims.WF S8x4096x256 S256x256 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.Attn.lean ====
/-
  Single-head self-attention over the 4096 positions of a 64 x 64 image with 256 channels, batch 8, written on the
  extended reals as a function of the argument arrays, in the two arrangements the two programs compute.

  A position (h, w) of the image is the token n = 64 h + w. For one image X (channel c, token n) and a weight matrix
  W (output channel o, input channel c) with bias β, the projected token is  proj X W β n o = Σ_c X c n · W o c + β o;
  queries, keys and values are three such projections.

  Arrangement K scales each query row by 1/16 before the product with the key rows, exponentiates the scores less
  their row maximum, multiplies the unnormalised weights with the value rows, and divides the product by the row's
  sum of weights. Arrangement R divides the scores by the square root of 256, normalises the weights by the row's sum
  first, and then multiplies with the value rows. The result adds gamma times the attended token to the input.
-/
import Idealize.ShloMosaic.PureOps.Ideal
import Idealize.ShloMosaic.Lib.ValueIdx

noncomputable section

namespace Cert.Attn

open Idealize.ShloMosaic Idealize.ShloMosaic.ValueIdx

/-- Tokens: the 4096 positions of one image, row-major. -/
abbrev Tok := Fin 4096
/-- Channels. -/
abbrev Chan := Fin 256

/-- The image batch, a weight matrix, a bias vector, the one-entry gamma: the argument arrays' shapes. -/
abbrev SImg : Shape := ⟨4, ![8, 256, 64, 64]⟩
abbrev SMat : Shape := ⟨2, ![256, 256]⟩
abbrev SVec : Shape := ⟨1, ![256]⟩
abbrev SOne : Shape := ⟨1, ![1]⟩

/-- The token at image position (h, w). -/
def tokIdx (h w : Fin 64) : Tok := ⟨h.val * 64 + w.val, by have := h.isLt; have := w.isLt; omega⟩

/-- Channel c of token n of image b. -/
def tokOf (x : SImg.Idx → EReal) (b : Fin 8) (c : Chan) (n : Tok) : EReal :=
  x (ix4 b c ⟨n.val / 64, by have := n.isLt; omega⟩ ⟨n.val % 64, by have := n.isLt; omega⟩)

/-- A weight matrix and a bias vector by coordinates. -/
def mat (W : SMat.Idx → EReal) (o c : Chan) : EReal := W (ix2 o c)
def vec (β : SVec.Idx → EReal) (o : Chan) : EReal := β (ix1 o)

/-- The per-token linear map: output channel o of token n. -/
def proj (X : Chan → Tok → EReal) (W : Chan → Chan → EReal) (β : Chan → EReal) (n : Tok) (o : Chan) : EReal :=
  (∑ c : Chan, X c n * W o c) + β o

/-- The maximum of a row of scores: the fold of max from -∞ over all tokens. -/
def rowMax (f : Tok → EReal) : EReal := (Finset.univ : Finset Tok).fold max ⊥ f

/-- Arrangement K's score of query token n against key token m: the query row scaled by 1/16 first. -/
def scoreK (Q K : Tok → Chan → EReal) (n m : Tok) : EReal :=
  ∑ o : Chan, (Q n o * Ideal.ofBits .f32 0x3D800000#32) * K m o

/-- Arrangement R's score: the plain product divided by the square root of 256. -/
def scoreR (Q K : Tok → Chan → EReal) (n m : Tok) : EReal :=
  Ideal.div (∑ o : Chan, Q n o * K m o) (Ideal.sqrt (Ideal.ofBits .f32 0x43800000#32))

/-- Arrangement K's attended token: unnormalised weights times values, divided by the sum of weights afterwards. -/
def outK (Q K V : Tok → Chan → EReal) (n : Tok) (c : Chan) : EReal :=
  Ideal.div (∑ m : Tok, Ideal.exp (scoreK Q K n m - rowMax (scoreK Q K n)) * V m c)
    (∑ m : Tok, Ideal.exp (scoreK Q K n m - rowMax (scoreK Q K n)))

/-- Arrangement R's attended token: weights normalised by their sum, then times values. -/
def outR (Q K V : Tok → Chan → EReal) (n : Tok) (c : Chan) : EReal :=
  ∑ m : Tok, Ideal.div (Ideal.exp (scoreR Q K n m - rowMax (scoreR Q K n)))
    (∑ m' : Tok, Ideal.exp (scoreR Q K n m' - rowMax (scoreR Q K n))) * V m c

/-- The block's result with a given arrangement of the attended token: input plus gamma times attention. -/
def result (out : (Tok → Chan → EReal) → (Tok → Chan → EReal) → (Tok → Chan → EReal) → Tok → Chan → EReal)
    (x : SImg.Idx → EReal) (Wq : SMat.Idx → EReal) (bq : SVec.Idx → EReal) (Wk : SMat.Idx → EReal) (bk : SVec.Idx → EReal)
    (Wv : SMat.Idx → EReal) (bv : SVec.Idx → EReal) (g : SOne.Idx → EReal) : SImg.Idx → EReal := fun i =>
  x i + g (ix1 0) * out (proj (tokOf x (i 0)) (mat Wq) (vec bq)) (proj (tokOf x (i 0)) (mat Wk) (vec bk))
    (proj (tokOf x (i 0)) (mat Wv) (vec bv)) (tokIdx (i 2) (i 3)) (i 1)

/-- The result in arrangement K and in arrangement R. -/
def GK := result outK
def GR := result outR

end Cert.Attn

end
-- ==== Proof.SqrtScale.lean ====
/-
  The reference divides every score by the square root of 256; the kernel multiplies the query rows by 1/16 before
  the product with the keys. On the extended reals the square root of the real 256 is the real 16.
-/
import Idealize.ShloMosaic.PureOps.Ideal

noncomputable section

namespace Cert.Attn

open Idealize.ShloMosaic

/-- The real square root of 256 is 16. -/
theorem real_sqrt_256 : Real.sqrt 256 = 16 := by
  rw [show (256 : ℝ) = 16 ^ 2 by norm_num]
  exact Real.sqrt_sq (by norm_num)

/-- On the extended reals the square root of 256 is 16. -/
theorem sqrt_256 : Ideal.sqrt ((256 : ℝ) : EReal) = ((16 : ℝ) : EReal) := by
  rw [Ideal.sqrt_coe, if_neg (by norm_num), real_sqrt_256]

end Cert.Attn

end
-- ==== Proof.AttnLaw.lean ====
/-
  The two arrangements of the attention block agree on real-valued arguments.

  With real queries, keys and values, both score formulas are the real number (Σ_o q_o k_o) / 16: the word
  0x3D800000 denotes 1/16, the word 0x43800000 denotes 256, whose square root is 16, and dividing by the real 16 is
  multiplying by 1/16. A row of real scores over the 4096 tokens has a real maximum μ, so every weight is the positive
  real exp (s_m - μ), and the sum L of the weights is a positive real. Dividing Σ_m e_m v_m by L afterwards, or
  dividing each weight by L first, gives the same real number (Σ_m e_m v_m) / L. Projections of real arguments are
  real, so the two results coincide; gamma only multiplies the common value and need not be finite.
-/
import proofs.«127185_j33122787787587_2_alg».proof.Proof.Attn
import proofs.«127185_j33122787787587_2_alg».proof.Proof.SqrtScale

noncomputable section

namespace Cert.Attn

open Idealize.ShloMosaic Idealize.ShloMosaic.ValueIdx

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real-valued arguments is real-valued. -/
theorem proj_real (X : Chan → Tok → EReal) (W : Chan → Chan → EReal) (β : Chan → EReal)
    (hX : ∀ c n, ∃ r : ℝ, X c n = (r : EReal)) (hW : ∀ o c, ∃ r : ℝ, W o c = (r : EReal))
    (hβ : ∀ o, ∃ r : ℝ, β o = (r : EReal)) (n : Tok) (o : Chan) :
    ∃ r : ℝ, proj X W β n o = (r : EReal) := by
  choose x hx using hX
  choose w hw using hW
  choose b hb using hβ
  refine ⟨(∑ c : Chan, x c n * w o c) + b o, ?_⟩
  unfold proj
  simp only [hx, hw, hb]
  rw [EReal.coe_add, coe_sum]
  simp only [EReal.coe_mul]

/-- The word 0x3D800000 denotes 1/16. -/
theorem ofBits_sixteenth : Ideal.ofBits .f32 0x3D800000#32 = ((1 / 16 : ℝ) : EReal) := by
  simp [Ideal.ofBits, Ideal.ieee, -EReal.coe_mul]; norm_num

/-- The word 0x43800000 denotes 256. -/
theorem ofBits_256 : Ideal.ofBits .f32 0x43800000#32 = ((256 : ℝ) : EReal) := by
  simp [Ideal.ofBits, Ideal.ieee, -EReal.coe_mul]; norm_num

/-- Arrangement K's score of real queries and keys is the real (Σ_o q_o k_o) / 16. -/
theorem scoreK_real (q k : Tok → Chan → ℝ) (n m : Tok) :
    scoreK (fun n o => (q n o : EReal)) (fun m o => (k m o : EReal)) n m
      = (((∑ o : Chan, q n o * k m o) / 16 : ℝ) : EReal) := by
  unfold scoreK
  rw [ofBits_sixteenth]
  simp only [← EReal.coe_mul]
  rw [← coe_sum]
  congr 1
  rw [Finset.sum_div]
  exact Finset.sum_congr rfl (fun o _ => by ring)

/-- Arrangement R's score of real queries and keys is the same real. -/
theorem scoreR_real (q k : Tok → Chan → ℝ) (n m : Tok) :
    scoreR (fun n o => (q n o : EReal)) (fun m o => (k m o : EReal)) n m
      = (((∑ o : Chan, q n o * k m o) / 16 : ℝ) : EReal) := by
  unfold scoreR
  rw [ofBits_256, sqrt_256, Ideal.div_coe (by norm_num : (16 : ℝ) ≠ 0)]
  simp only [← EReal.coe_mul]
  rw [← coe_sum, ← EReal.coe_mul]
  congr 1
  ring

/-- The maximum of a row of real scores over the 4096 tokens is real. -/
theorem rowMax_real (f : Tok → ℝ) : ∃ μ : ℝ, rowMax (fun m => (f m : EReal)) = (μ : EReal) := by
  have h1 : rowMax (fun m => (f m : EReal)) < ⊤ := by
    unfold rowMax
    rw [Finset.fold_max_lt]
    exact ⟨bot_lt_top, fun m _ => EReal.coe_lt_top _⟩
  have h2 : ⊥ < rowMax (fun m => (f m : EReal)) := by
    unfold rowMax
    rw [Finset.lt_fold_max]
    exact Or.inr ⟨0, Finset.mem_univ _, EReal.bot_lt_coe _⟩
  exact ⟨(rowMax (fun m => (f m : EReal))).toReal, (EReal.coe_toReal h1.ne h2.ne').symm⟩

/-- With positive real weights e and real values v: dividing the weighted sum by the sum of the weights is the sum of
    the values weighted by the normalised weights. -/
theorem div_sum_eq (e v : Tok → ℝ) (he : ∀ m, 0 < e m) :
    Ideal.div (∑ m : Tok, (e m : EReal) * (v m : EReal)) (∑ m : Tok, (e m : EReal))
      = ∑ m : Tok, Ideal.div (e m : EReal) (∑ m' : Tok, (e m' : EReal)) * (v m : EReal) := by
  have hL : (∑ m : Tok, e m) ≠ 0 := (Finset.sum_pos (fun m _ => he m) Finset.univ_nonempty).ne'
  simp only [← EReal.coe_mul, ← coe_sum]
  simp only [Ideal.div_coe hL, ← EReal.coe_mul, ← coe_sum]
  congr 1
  rw [Finset.sum_mul]
  exact Finset.sum_congr rfl (fun m _ => by ring)

/-- On real-valued queries, keys and values the two arrangements give the same attended token. -/
theorem outK_eq_outR (Q K V : Tok → Chan → EReal)
    (hQ : ∀ n o, ∃ r : ℝ, Q n o = (r : EReal)) (hK : ∀ n o, ∃ r : ℝ, K n o = (r : EReal))
    (hV : ∀ n o, ∃ r : ℝ, V n o = (r : EReal)) (n : Tok) (c : Chan) :
    outK Q K V n c = outR Q K V n c := by
  choose q hq using hQ
  choose k hk using hK
  choose v hv using hV
  obtain rfl : Q = fun n o => (q n o : EReal) := funext fun n => funext fun o => hq n o
  obtain rfl : K = fun n o => (k n o : EReal) := funext fun n => funext fun o => hk n o
  obtain rfl : V = fun n o => (v n o : EReal) := funext fun n => funext fun o => hv n o
  have hsK : scoreK (fun n o => (q n o : EReal)) (fun m o => (k m o : EReal)) n
      = fun m => (((∑ o : Chan, q n o * k m o) / 16 : ℝ) : EReal) := funext (scoreK_real q k n)
  have hsR : scoreR (fun n o => (q n o : EReal)) (fun m o => (k m o : EReal)) n
      = fun m => (((∑ o : Chan, q n o * k m o) / 16 : ℝ) : EReal) := funext (scoreR_real q k n)
  obtain ⟨μ, hμ⟩ := rowMax_real (fun m => (∑ o : Chan, q n o * k m o) / 16)
  unfold outK outR
  rw [hsK, hsR, hμ]
  simp only [← EReal.coe_sub, Ideal.exp_coe]
  exact div_sum_eq (fun m => Real.exp ((∑ o : Chan, q n o * k m o) / 16 - μ)) (fun m => v m c)
    (fun m => Real.exp_pos _)

/-- The two arrangements of the block agree on real-valued arguments (gamma arbitrary). -/
theorem GK_eq_GR (x : SImg.Idx → EReal) (Wq : SMat.Idx → EReal) (bq : SVec.Idx → EReal) (Wk : SMat.Idx → EReal) (bk : SVec.Idx → EReal) (Wv : SMat.Idx → EReal) (bv : SVec.Idx → EReal) (g : SOne.Idx → EReal)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal)) :
    GK x Wq bq Wk bk Wv bv g = GR x Wq bq Wk bk Wv bv g := by
  funext i
  have hX : ∀ c n, ∃ r : ℝ, tokOf x (i 0) c n = (r : EReal) := fun c n => by unfold tokOf; exact hx _
  have hmat : ∀ (W : SMat.Idx → EReal), (∀ j, ∃ r : ℝ, W j = (r : EReal)) →
      ∀ o c, ∃ r : ℝ, mat W o c = (r : EReal) := fun W hW o c => by unfold mat; exact hW _
  have hvec : ∀ (β : SVec.Idx → EReal), (∀ j, ∃ r : ℝ, β j = (r : EReal)) →
      ∀ o, ∃ r : ℝ, vec β o = (r : EReal) := fun β hβ o => by unfold vec; exact hβ _
  have h := outK_eq_outR _ _ _ (proj_real _ _ _ hX (hmat Wq hWq) (hvec bq hbq))
    (proj_real _ _ _ hX (hmat Wk hWk) (hvec bk hbk)) (proj_real _ _ _ hX (hmat Wv hWv) (hvec bv hbv))
    (tokIdx (i 2) (i 3)) (i 1)
  exact congrArg (fun t => x i + g (ix1 0) * t) h

end Cert.Attn

end
-- ==== Proof.FiniteInputs.lean ====
/-
  Finiteness of the eight inputs, read back from the precondition. The precondition is the conjunction, over the
  eight float arguments, of all(|x| < +inf): each conjunct is a reduction by "and", from 1, of the elementwise comparison
  of max x (-x) against the word 0x7F800000, which denotes the top element of the extended reals. A conjunction of i1
  words that is 1 has every conjunct 1; a reduction by "and" over all axes that is 1 had a 1 at every index; and an
  extended real a with max a (-a) < top is neither bottom nor top, hence a real.
-/
import proofs.«127185_j33122787787587_2_alg».proof.Pre_finite_inputs
import proofs.«127185_j33122787787587_2_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic
open Cert.Pre_finite_inputs

/-- The rank-0 shape has one index. -/
instance subsingleton_rank0 : Subsingleton S_.Idx := ⟨fun a b => funext fun d => d.elim0⟩

/-- The f32 word 0x7F800000 denotes the top element. -/
theorem inf_word : Ideal.ofBits .f32 0x7F800000#32 = (⊤ : EReal) := by simp [Ideal.ofBits, Ideal.ieee]

/-- An extended real whose absolute value max a (-a) is below top is a real. -/
theorem real_of_abs_lt_top (a : EReal) (h : max a (-a) < ⊤) : ∃ r : ℝ, a = (r : EReal) := by
  induction a using EReal.rec with
  | bot => simp at h
  | top => simp at h
  | coe r => exact ⟨r, rfl⟩

/-- The element test |a| < +inf, when it is 1, says a is a real. -/
theorem real_of_cmp (a : Ideal .f32)
    (h : FloatOps.cmpf .olt (FloatOps.hostAbsf a) (FloatOps.ofBits (F := Ideal) .f32 0x7F800000#32) = 1#1) :
    ∃ r : ℝ, a = (r : EReal) := by
  rw [Ideal.hostAbsf_def, Ideal.absf_def, Ideal.ofBits_def, inf_word, Ideal.cmpf_def] at h
  refine real_of_abs_lt_top a ?_
  by_contra hn
  simp [Ideal.cmp, hn] at h

/-- all(|x| < +inf) = 1, over any shape: every entry of x is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : ∃ r : ℝ, x i = (r : EReal) :=
  real_of_cmp (x i) (Host.reduce_andi_all _ _ hr hu ValueIdx.ix0 e i)

/-- A conjunction of two rank-0 i1 arrays that is 1 has both 1. -/
theorem and_ix0 (a b : IVec S_ 1) (h : andi a b ValueIdx.ix0 = 1#1) : a ValueIdx.ix0 = 1#1 ∧ b ValueIdx.ix0 = 1#1 :=
  IntOp.andi_eq_one.1 h

theorem real_of_pre [Cert.Pre_finite_inputs.Facts]
    (x0 : FVec Ideal S8x256x64x64 .f32) (x1 : FVec Ideal S256x256 .f32) (x2 : FVec Ideal S256 .f32)
    (x3 : FVec Ideal S256x256 .f32) (x4 : FVec Ideal S256 .f32) (x5 : FVec Ideal S256x256 .f32)
    (x6 : FVec Ideal S256 .f32) (x7 : FVec Ideal S1 .f32)
    (h : Cert.Pre_finite_inputs.fn (F := Ideal) x0 x1 x2 x3 x4 x5 x6 x7 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have e := congrFun h ValueIdx.ix0
  dsimp only [fn, fn_part1, fn_part2] at e
  obtain ⟨e, h7⟩ := and_ix0 _ _ e
  obtain ⟨e, h6⟩ := and_ix0 _ _ e
  obtain ⟨e, h5⟩ := and_ix0 _ _ e
  obtain ⟨e, h4⟩ := and_ix0 _ _ e
  obtain ⟨e, h3⟩ := and_ix0 _ _ e
  obtain ⟨e, h2⟩ := and_ix0 _ _ e
  obtain ⟨h0, h1⟩ := and_ix0 _ _ e
  exact ⟨real_of_all x0 _ _ _ h0, real_of_all x1 _ _ _ h1, real_of_all x2 _ _ _ h2, real_of_all x3 _ _ _ h3,
    real_of_all x4 _ _ _ h4, real_of_all x5 _ _ _ h5, real_of_all x6 _ _ _ h6, real_of_all x7 _ _ _ h7⟩

end Cert.Attn.Finite

end
-- ==== Proof.LibRowMax.lean ====
/-
  A three-axis stack [a,b,c] reduced by max along its last axis, read at (i, j) as the fold of max over k of the
  entries (i, j, k): for a kernel's multi-reduction from its accumulator word, and for the host's one-operand reduce
  from its scalar initial value. The fold is over the finite set of all k, so it does not depend on any order.
-/
import Idealize.ShloMosaic.Lib.Pipeline.Value
import Idealize.ShloMosaic.Lib.ValueIdx
import Idealize.ShloMosaic.PureOps.Ideal.Laws

namespace Cert.LibRowMax

open Idealize.ShloMosaic Idealize.ShloMosaic.ValueIdx

/-- Entry (i, j, k) of the stack is the entry at (i, j) with k inserted on the last axis. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by match ax with | ⟨0, _⟩ => rfl | ⟨1, _⟩ => rfl | ⟨2, _⟩ => rfl)

/-- A kernel's maximum along the last axis, from the accumulator word's value. -/
theorem kernel_max_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  rw [Ideal.multiReduction_maximumf_single]
  refine congrArg (fun f => Finset.fold max _ f Finset.univ) ?_
  exact funext fun k => congrArg src (lift_last h i j k)

/-- The host's maximum along the last axis, from its scalar initial value. -/
theorem host_max_last_apply {a b c : ℕ} (x : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce (FloatOps.maximumf (F := Ideal) (φ := .f32)) x init h' hu (ix2 i j)
      = (Finset.univ : Finset (Fin c)).fold max (init ix0) (fun k => x (ix3 i j k)) := by
  rw [Host.reduce_eq_fold_single (FloatOps.maximumf (F := Ideal) (φ := .f32)) x init h' h hu (ix2 i j)]
  show Finset.fold max _ _ Finset.univ = _
  rw [show init (Shape.Idx.first hu) = init ix0 from congrArg init (funext fun q => q.elim0)]
  refine congrArg (fun f => Finset.fold max _ f Finset.univ) ?_
  exact funext fun k => congrArg x (lift_last h i j k)

end Cert.LibRowMax
-- ==== Proof.RefSide.lean ====
/-
  The reference program computes arrangement R of the attention block: read stage by stage at coordinate indices,
  its result is the input plus gamma times the attended token with the weights normalised before the product with
  the value rows.
-/
import proofs.«127185_j33122787787587_2_alg».proof.Proof.Gen.ReferenceIdeal.Read
import proofs.«127185_j33122787787587_2_alg».proof.Proof.Attn
import proofs.«127185_j33122787787587_2_alg».proof.Proof.LibRowMax

noncomputable section

namespace Cert.Attn.RefSide

open Idealize.ShloMosaic Idealize.ShloMosaic.ValueIdx Cert.ReferenceIdeal Cert.ReferenceIdeal.Gen Cert.ReferenceIdeal.Read Cert.Attn

/-- The image reshaped to tokens and transposed, at (b, n, c): channel c of token n of image b. -/
theorem x_at (x0 : SImg.Idx → EReal) (b : Fin 8) (n : Tok) (c : Chan) :
    val_main_v1 (F := Ideal) x0 (ix3 b n c) = tokOf x0 b c n := by
  rw [val_main_v1_apply, val_main_v0_apply]
  unfold tokOf
  refine congrArg x0 (funext fun a => Fin.ext ?_)
  have hb := b.isLt; have hn := n.isLt; have hc := c.isLt
  match a with
  | ⟨0, _⟩ => show ((b.val * 256 + c.val) * 4096 + n.val) / 1048576 = b.val; omega
  | ⟨1, _⟩ => show ((b.val * 256 + c.val) * 4096 + n.val) / 4096 % 256 = c.val; omega
  | ⟨2, _⟩ => show ((b.val * 256 + c.val) * 4096 + n.val) / 64 % 64 = n.val / 64; omega
  | ⟨3, _⟩ => show ((b.val * 256 + c.val) * 4096 + n.val) % 64 = n.val % 64; omega

/-- The query projection at (b, n, o). -/
theorem q_at (x0 : SImg.Idx → EReal) (x1 : SMat.Idx → EReal) (x2 : SVec.Idx → EReal) (b : Fin 8) (n : Tok) (o : Chan) :
    val_main_v5 (F := Ideal) x0 x1 x2 (ix3 b n o) = proj (tokOf x0 b) (mat x1) (vec x2) n o := by
  rw [val_main_v5_apply, val_main_v2_apply, val_main_v4_apply, val_main_v3_apply]
  simp only [Ideal.addf_def]
  unfold proj mat vec
  refine congrArg₂ (· + ·) (Finset.sum_congr rfl fun k _ => ?_) (congrArg x2 (eq_ix1 _))
  rw [show lidx_main_v2 (ix3 b n o) k = ix3 b n k from eq_ix3 _, show ridx_main_v2 (ix3 b n o) k = ix2 o k from eq_ix2 _, x_at]

/-- The key projection at (b, n, o). -/
theorem k_at (x0 : SImg.Idx → EReal) (x3 : SMat.Idx → EReal) (x4 : SVec.Idx → EReal) (b : Fin 8) (n : Tok) (o : Chan) :
    val_main_v9 (F := Ideal) x0 x3 x4 (ix3 b n o) = proj (tokOf x0 b) (mat x3) (vec x4) n o := by
  rw [val_main_v9_apply, val_main_v6_apply, val_main_v8_apply, val_main_v7_apply]
  simp only [Ideal.addf_def]
  unfold proj mat vec
  refine congrArg₂ (· + ·) (Finset.sum_congr rfl fun k _ => ?_) (congrArg x4 (eq_ix1 _))
  rw [show lidx_main_v6 (ix3 b n o) k = ix3 b n k from eq_ix3 _, show ridx_main_v6 (ix3 b n o) k = ix2 o k from eq_ix2 _, x_at]

/-- The value projection at (b, n, o). -/
theorem v_at (x0 : SImg.Idx → EReal) (x5 : SMat.Idx → EReal) (x6 : SVec.Idx → EReal) (b : Fin 8) (n : Tok) (o : Chan) :
    val_main_v13 (F := Ideal) x0 x5 x6 (ix3 b n o) = proj (tokOf x0 b) (mat x5) (vec x6) n o := by
  rw [val_main_v13_apply, val_main_v10_apply, val_main_v12_apply, val_main_v11_apply]
  simp only [Ideal.addf_def]
  unfold proj mat vec
  refine congrArg₂ (· + ·) (Finset.sum_congr rfl fun k _ => ?_) (congrArg x6 (eq_ix1 _))
  rw [show lidx_main_v10 (ix3 b n o) k = ix3 b n k from eq_ix3 _, show ridx_main_v10 (ix3 b n o) k = ix2 o k from eq_ix2 _, x_at]

/-- The word 0xFF800000 denotes -∞. -/
theorem ofBits_neg_inf : Ideal.ofBits .f32 0xFF800000#32 = (⊥ : EReal) := by
  simp [Ideal.ofBits, Ideal.ieee]

/-- The scaled score at (b, n, m): the product of query row n and key row m divided by the square root of 256. -/
theorem score_at (x0 : SImg.Idx → EReal) (x1 : SMat.Idx → EReal) (x2 : SVec.Idx → EReal) (x3 : SMat.Idx → EReal)
    (x4 : SVec.Idx → EReal) (b : Fin 8) (n m : Tok) :
    val_main_v17 (F := Ideal) x0 x1 x2 x3 x4 (ix3 b n m)
      = scoreR (proj (tokOf x0 b) (mat x1) (vec x2)) (proj (tokOf x0 b) (mat x3) (vec x4)) n m := by
  rw [val_main_v17_apply, val_main_v14_apply, val_main_v16_apply, val_main_v15_apply, val_main_cst_apply]
  simp only [Ideal.hostDivf_def, Ideal.hostUnary_sqrt_def, Ideal.ofBits_def]
  unfold scoreR
  refine congrArg (fun s => Ideal.div s _) (Finset.sum_congr rfl fun k _ => ?_)
  rw [show lidx_main_v14 (ix3 b n m) k = ix3 b n k from eq_ix3 _, show ridx_main_v14 (ix3 b n m) k = ix3 b m k from eq_ix3 _,
    q_at, k_at]

/-- The row maximum at (b, n): the fold of max from -∞ over the scores of row n. -/
theorem max_at (x0 : SImg.Idx → EReal) (x1 : SMat.Idx → EReal) (x2 : SVec.Idx → EReal) (x3 : SMat.Idx → EReal)
    (x4 : SVec.Idx → EReal) (b : Fin 8) (n : Tok) :
    val_main_v20 (F := Ideal) x0 x1 x2 x3 x4 (ix2 b n)
      = rowMax (scoreR (proj (tokOf x0 b) (mat x1) (vec x2)) (proj (tokOf x0 b) (mat x3) (vec x4)) n) := by
  rw [val_main_v20_apply, val_main_v19_apply, val_main_cst_1_apply]
  unfold val_main_v18
  rw [Cert.LibRowMax.host_max_last_apply (val_main_v17 (F := Ideal) x0 x1 x2 x3 x4) (val_main_cst_0 (F := Ideal))
    reducesTo_S8x4096x4096_S8x4096_d2 (by decide) h_S_ b n, val_main_cst_0_apply]
  simp only [Ideal.maximumf_def, Ideal.ofBits_def, ofBits_neg_inf]
  rw [max_bot_left]
  unfold rowMax
  exact congrArg (fun f => Finset.fold max ⊥ f Finset.univ) (funext fun m => score_at x0 x1 x2 x3 x4 b n m)

/-- The unnormalised weight at (b, n, m): the exponential of the score less its row maximum. -/
theorem w_at (x0 : SImg.Idx → EReal) (x1 : SMat.Idx → EReal) (x2 : SVec.Idx → EReal) (x3 : SMat.Idx → EReal)
    (x4 : SVec.Idx → EReal) (b : Fin 8) (n m : Tok) :
    val_main_v24 (F := Ideal) x0 x1 x2 x3 x4 (ix3 b n m)
      = Ideal.exp (scoreR (proj (tokOf x0 b) (mat x1) (vec x2)) (proj (tokOf x0 b) (mat x3) (vec x4)) n m
          - rowMax (scoreR (proj (tokOf x0 b) (mat x1) (vec x2)) (proj (tokOf x0 b) (mat x3) (vec x4)) n)) := by
  rw [val_main_v24_apply, val_main_v23_apply, val_main_v22_apply, val_main_v21_apply]
  simp only [Ideal.hostUnary_exp_def, Ideal.subf_def]
  rw [show idx_main_v21 (idx_main_v22 (ix3 b n m)) = ix2 b n from eq_ix2 _, score_at, max_at]

/-- The row's sum of weights at (b, n). -/
theorem sum_at (x0 : SImg.Idx → EReal) (x1 : SMat.Idx → EReal) (x2 : SVec.Idx → EReal) (x3 : SMat.Idx → EReal)
    (x4 : SVec.Idx → EReal) (b : Fin 8) (n : Tok) :
    val_main_v25 (F := Ideal) x0 x1 x2 x3 x4 (ix2 b n)
      = ∑ m' : Tok, Ideal.exp (scoreR (proj (tokOf x0 b) (mat x1) (vec x2)) (proj (tokOf x0 b) (mat x3) (vec x4)) n m'
          - rowMax (scoreR (proj (tokOf x0 b) (mat x1) (vec x2)) (proj (tokOf x0 b) (mat x3) (vec x4)) n)) := by
  rw [val_main_v25_apply, val_main_cst_2_apply]
  simp only [Ideal.ofBits_def, Ideal.ofBits_zero_f32, zero_add]
  refine Finset.sum_congr rfl fun k _ => ?_
  rw [show idx_main_v25 (ix2 b n) k = ix3 b n k from eq_ix3 _, w_at]

/-- The normalised weight at (b, n, m). -/
theorem p_at (x0 : SImg.Idx → EReal) (x1 : SMat.Idx → EReal) (x2 : SVec.Idx → EReal) (x3 : SMat.Idx → EReal)
    (x4 : SVec.Idx → EReal) (b : Fin 8) (n m : Tok) :
    val_main_v28 (F := Ideal) x0 x1 x2 x3 x4 (ix3 b n m)
      = Ideal.div (Ideal.exp (scoreR (proj (tokOf x0 b) (mat x1) (vec x2)) (proj (tokOf x0 b) (mat x3) (vec x4)) n m
          - rowMax (scoreR (proj (tokOf x0 b) (mat x1) (vec x2)) (proj (tokOf x0 b) (mat x3) (vec x4)) n)))
        (∑ m' : Tok, Ideal.exp (scoreR (proj (tokOf x0 b) (mat x1) (vec x2)) (proj (tokOf x0 b) (mat x3) (vec x4)) n m'
          - rowMax (scoreR (proj (tokOf x0 b) (mat x1) (vec x2)) (proj (tokOf x0 b) (mat x3) (vec x4)) n))) := by
  rw [val_main_v28_apply, val_main_v27_apply, val_main_v26_apply]
  simp only [Ideal.hostDivf_def]
  rw [show idx_main_v26 (idx_main_v27 (ix3 b n m)) = ix2 b n from eq_ix2 _, w_at, sum_at]

/-- The attended token at (b, n, c): the normalised weights of row n times the value rows. -/
theorem out_at (x0 : SImg.Idx → EReal) (x1 : SMat.Idx → EReal) (x2 : SVec.Idx → EReal) (x3 : SMat.Idx → EReal)
    (x4 : SVec.Idx → EReal) (x5 : SMat.Idx → EReal) (x6 : SVec.Idx → EReal) (b : Fin 8) (n : Tok) (c : Chan) :
    val_main_v29 (F := Ideal) x0 x1 x2 x3 x4 x5 x6 (ix3 b n c)
      = outR (proj (tokOf x0 b) (mat x1) (vec x2)) (proj (tokOf x0 b) (mat x3) (vec x4))
          (proj (tokOf x0 b) (mat x5) (vec x6)) n c := by
  rw [val_main_v29_apply]
  unfold outR
  refine Finset.sum_congr rfl fun k _ => ?_
  rw [show lidx_main_v29 (ix3 b n c) k = ix3 b n k from eq_ix3 _, show ridx_main_v29 (ix3 b n c) k = ix3 b k c from eq_ix3 _,
    p_at, v_at]

/-- Gamma reshaped to rank 0 and broadcast: every entry is the one entry of gamma. -/
theorem gamma_at (x7 : SOne.Idx → EReal) (i : SImg.Idx) :
    val_main_v33 (F := Ideal) x7 i = x7 (ix1 0) := by
  rw [val_main_v33_apply]
  unfold val_main_v32
  refine shapeCast_apply x7 shapeCasts_S1_S_ _ (ix1 0) ?_
  rw [Shape.rowMajor_val_one]
  have h := (S_.rowMajor (idx_main_v33 i)).isLt
  have h1 : S_.numel = 1 := by decide
  show 0 = _
  omega

/-- The attended tokens transposed and reshaped back to the image, at (b, c, h, w). -/
theorem back_at (x0 : SImg.Idx → EReal) (x1 : SMat.Idx → EReal) (x2 : SVec.Idx → EReal) (x3 : SMat.Idx → EReal)
    (x4 : SVec.Idx → EReal) (x5 : SMat.Idx → EReal) (x6 : SVec.Idx → EReal) (b : Fin 8) (c : Chan) (h w : Fin 64) :
    val_main_v31 (F := Ideal) x0 x1 x2 x3 x4 x5 x6 (ix4 b c h w)
      = outR (proj (tokOf x0 b) (mat x1) (vec x2)) (proj (tokOf x0 b) (mat x3) (vec x4))
          (proj (tokOf x0 b) (mat x5) (vec x6)) (tokIdx h w) c := by
  rw [val_main_v31_apply, val_main_v30_apply]
  rw [show idx_main_v30 (idx_main_v31 (ix4 b c h w)) = ix3 b (tokIdx h w) c from funext fun a => Fin.ext (by
    have hb := b.isLt; have hc := c.isLt; have hh := h.isLt; have hw := w.isLt
    match a with
    | ⟨0, _⟩ => show (((b.val * 256 + c.val) * 64 + h.val) * 64 + w.val) / 1048576 = b.val; omega
    | ⟨1, _⟩ => show (((b.val * 256 + c.val) * 64 + h.val) * 64 + w.val) % 4096 = h.val * 64 + w.val; omega
    | ⟨2, _⟩ => show (((b.val * 256 + c.val) * 64 + h.val) * 64 + w.val) / 4096 % 256 = c.val; omega), out_at]

/-- The reference program's result is arrangement R of the attention block. -/
theorem reference_eq_GR (x0 : (⟨Cert.ReferenceIdeal.S8x256x64x64, .f32⟩ : BufTy).Contents (Elt Ideal)) (x1 : (⟨Cert.ReferenceIdeal.S256x256, .f32⟩ : BufTy).Contents (Elt Ideal)) (x2 : (⟨Cert.ReferenceIdeal.S256, .f32⟩ : BufTy).Contents (Elt Ideal)) (x3 : (⟨Cert.ReferenceIdeal.S256x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S1, .f32⟩ : BufTy).Contents (Elt Ideal)) :
    Cert.ReferenceIdeal.Read.val_main_v35 (F := Ideal) x0 x1 x2 x3 x4 x5 x6 x7 = Cert.Attn.GR x0 x1 x2 x3 x4 x5 x6 x7 := by
  funext i
  obtain ⟨b, c, h, w, rfl⟩ : ∃ b c h w, i = ix4 b c h w := ⟨i 0, i 1, i 2, i 3, eq_ix4 i⟩
  rw [val_main_v35_apply, val_main_v34_apply, gamma_at, back_at]
  simp only [Ideal.addf_def, Ideal.mulf_def]
  rfl

end Cert.Attn.RefSide

end
-- ==== Proof.LibMatmulTT.lean ====
/-
  A matrix product whose LEFT operand is contracted on its FIRST axis and whose RIGHT operand is contracted on its
  LAST axis, read at an index: for an inner × rows left operand and a columns × inner right operand (no batch
  axis) — the product of the transpose of one matrix with the transpose of another, neither transpose formed —
  a product into the zero accumulator is, at `(i, j)`, the sum over the inner coordinate `k` of
  `lhs (k, i) · rhs (j, k)`.
-/
import Idealize.ShloMosaic.PureOps.Ideal.Laws
import Idealize.ShloMosaic.Lib.ValueIdx

noncomputable section

namespace Idealize.ShloMosaic.ValueIdx

/-- The dimension numbers `<[0], [1], [1], [0]>`: `K×M` by `N×K`, the left operand contracted on its first axis,
    the right on its last. -/
def dotTransposedBoth (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- The product with both operands transposed, into the zero accumulator, at `(i, j)`, as a sum over the inner
    coordinate. -/
theorem matmul_transposedBoth_zero_apply (M K N : ℕ) {φ₁ φ₂ : FTy} (prec : Option ContractPrecision)
    (lhs : FVec Ideal ⟨2, ![K, M]⟩ φ₁) (rhs : FVec Ideal ⟨2, ![N, K]⟩ φ₂) (i : Fin M) (j : Fin N) :
    FloatOps.matmul (dotTransposedBoth M K N) prec lhs rhs (constant ⟨2, ![M, N]⟩ .f32 0x00000000#32) (ix2 i j)
      = ∑ k : Fin K, lhs (ix2 k i) * rhs (ix2 j k) := by
  rw [Ideal.matmul_constant_zero_apply, ← Equiv.sum_comp (contrEquiv1 (dotTransposedBoth M K N) K rfl rfl).symm]
  refine Finset.sum_congr rfl fun k _ => ?_
  have hk := contrEquiv1_symm_val (dotTransposedBoth M K N) K rfl rfl k
  have el : (dotTransposedBoth M K N).lhsIdx (ix2 i j) ((contrEquiv1 (dotTransposedBoth M K N) K rfl rfl).symm k) = ix2 k i :=
    funext fun a => Fin.ext (by
      match a with
      | ⟨0, _⟩ => exact hk
      | ⟨1, _⟩ => rfl)
  have er : (dotTransposedBoth M K N).rhsIdx (ix2 i j) ((contrEquiv1 (dotTransposedBoth M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.LibMatmulNT.lean ====
/-
  A matrix product whose right operand is contracted on its LAST axis, read at an index: for the dimension
  numbers that contract the left operand's second axis with the right operand's second (rows × inner times
  columns × inner, no batch axis — the product of a matrix with the transpose of another, the transpose never
  formed), a product into the zero accumulator is, at `(i, j)`, the sum over the inner coordinate `k` of
  `lhs (i, k) · rhs (j, k)`.
-/
import Idealize.ShloMosaic.PureOps.Ideal.Laws
import Idealize.ShloMosaic.Lib.ValueIdx

noncomputable section

namespace Idealize.ShloMosaic.ValueIdx

/-- The product with a right operand contracted on its last axis, into the zero accumulator, at `(i, j)`, as a sum
    over the inner coordinate. -/
theorem matmul_transposedRhs_zero_apply (M K N : ℕ) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.KernelOps.lean ====
/-
  The kernel's projections read at an index, on the extended reals.

  A chunk of T tokens of one image, laid out channels × tokens, is multiplied (both operands transposed, the
  transposes never formed) with a 256 × 256 weight matrix laid out output channel × input channel, and a bias row is
  added to every token: entry (r, o) of the result is  Σ_c chunk(c, r) · W(o, c) + bias(o).  The kernel computes the
  key and value rows of an image in four chunks of 1024 tokens, each by this formula in a slightly different spelling
  (a change of float format is the identity on the extended reals, and a cast to the same shape is the identity).
-/
import proofs.«127185_j33122787787587_2_alg».proof.Proof.Gen.KernelIdeal.Skeleton
import proofs.«127185_j33122787787587_2_alg».proof.Proof.Attn
import proofs.«127185_j33122787787587_2_alg».proof.Proof.LibMatmulTT
import proofs.«127185_j33122787787587_2_alg».proof.Proof.LibMatmulNT
import proofs.«127185_j33122787787587_2_alg».proof.Proof.LibMatmul
import proofs.«127185_j33122787787587_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import proofs.«127185_j33122787787587_2_alg».proof.Proof.LibMatmulTT

noncomputable section

open Idealize.ShloMosaic Idealize.ShloMosaic.ValueIdx

namespace Cert.Attn.KernelOps

open Cert.KernelIdeal Cert.KernelIdeal.Gen

/-- The printed dimension numbers of the projections are the doubly transposed product's. -/
theorem dims_proj1024 : dot_S256x1024_S256x256_S1024x256_0_1_1_0_n_n = dotTransposedBoth 1024 256 256 := rfl
theorem dims_proj256 : dot_S256x256_S256x256_S256x256_0_1_1_0_n_n = dotTransposedBoth 256 256 256 := rfl

/-- One projected chunk at token r, output channel o. -/
theorem projChunk_apply (T : ℕ) (xc : (⟨3, ![1, 256, T]⟩ : Shape).Idx → EReal) (W : (⟨2, ![256, 256]⟩ : Shape).Idx → EReal)
    (β : (⟨2, ![1, 256]⟩ : Shape).Idx → EReal) (h1 : (⟨3, ![1, 256, T]⟩ : Shape).ShapeCasts ⟨2, ![256, T]⟩)
    (hb : (⟨2, ![1, 256]⟩ : Shape).Broadcasts ⟨2, ![T, 256]⟩) (r : Fin T) (o : Fin 256) :
    addf (F := Ideal) (φ := .f32)
        (matmul (F := Ideal) (φ₁ := .bf16) (φ₂ := .bf16) (dotTransposedBoth T 256 256) none (shapeCast ⟨2, ![256, T]⟩ xc h1) W
          (constant ⟨2, ![T, 256]⟩ .f32 0x00000000#32))
        (broadcastTo ⟨2, ![T, 256]⟩ β hb) (ix2 r o)
      = (∑ c : Fin 256, xc (ix3 (0 : Fin 1) c r) * W (ix2 o c)) + β (ix2 (0 : Fin 1) o) := by
  rw [addf_apply, broadcastTo_1b_ab_apply]
  refine congrArg (· + β (ix2 (0 : Fin 1) o)) ?_
  refine (matmul_transposedBoth_zero_apply T 256 256 (φ₁ := .bf16) (φ₂ := .bf16) none (shapeCast ⟨2, ![256, T]⟩ xc h1) W r o).trans ?_
  refine Finset.sum_congr rfl fun c _ => ?_
  rw [shapeCast_1ab_ab_apply]

/-- Arrangement K's scores of ONE query row q against every key row, and its attended token: what the kernel computes
    for each of the 256 query tokens of a tile. -/
def scoreKrow (q : Chan → EReal) (K : Tok → Chan → EReal) (m : Tok) : EReal :=
  ∑ o : Chan, (q o * Ideal.ofBits .f32 0x3D800000#32) * K m o

def outKrow (q : Chan → EReal) (K V : Tok → Chan → EReal) (c : Chan) : EReal :=
  Ideal.div (∑ m : Tok, Ideal.exp (scoreKrow q K m - rowMax (scoreKrow q K)) * V m c)
    (∑ m : Tok, Ideal.exp (scoreKrow q K m - rowMax (scoreKrow q K)))

/-- Arrangement K at query token n only reads the query row of n. -/
theorem outK_eq_outKrow (Q K V : Tok → Chan → EReal) (n : Tok) (c : Chan) : outK Q K V n c = outKrow (Q n) K V c := rfl

end Cert.Attn.KernelOps

end
-- ==== Proof.KernelBlocks.lean ====
/-
  How the kernel's windows read the arrays. The grid has 128 points, point t = 16 b + j for image b and query tile j.
  The image window's block at point t is the whole image b, whatever j; the weight, bias and gamma windows' blocks are
  their whole arrays at every point; the output window's block at point t is the 256 tokens 256 j … 256 j + 255 of
  image b, all channels.
-/
import proofs.«127185_j33122787787587_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.Attn.KernelBlocks

open Cert.KernelIdeal Cert.KernelIdeal.Gen

variable {F : FTy → Type} [FloatOps F]
variable (m : (ℓ : Loc nD τ sig) → Buf (Elt F) ℓ)

/-- The image of point t. -/
def imgOf (t : Fin cfg0.N) : Fin 8 := ⟨t.val / 16, by have := t.isLt; have : cfg0.N = 128 := N_0; omega⟩
/-- The query tile of point t. -/
def tileOf (t : Fin cfg0.N) : Fin 16 := ⟨t.val % 16, Nat.mod_lt _ (by decide)⟩

/-- The image window's block index at point t is (image, 0, 0). -/
theorem index0 : ∀ t : Fin cfg0.N, win0_0.index t (0 : Fin 3) = t.val / 16 ∧ win0_0.index t (1 : Fin 3) = 0 ∧ win0_0.index t (2 : Fin 3) = 0 :=
  (by decide +kernel : ∀ t : Fin grid0.N, win0_0.index t (0 : Fin 3) = t.val / 16 ∧ win0_0.index t (1 : Fin 3) = 0 ∧ win0_0.index t (2 : Fin 3) = 0)

/-- The image block at point t is image (t / 16) of the reshaped input. -/
theorem iblk0_apply (c : Dev nD) (t : Fin cfg0.N) (u : Fin 1) (ch : Fin 256) (n : Fin 4096) :
    (iblk m c 0 t : Vec F S1x256x4096 .f32) (ix3 u ch n) = V m c main_v0 (ix3 (imgOf t) ch n) := by
  have hi := index0 t
  have hu : u.val = 0 := by omega
  unfold iblk
  rw [View.read_apply]
  show V m c main_v0 _ = V m c main_v0 _
  congr 1
  funext a
  apply Fin.ext
  match a with
  | ⟨0, _⟩ => show win0_0.index t 0 * 1 + 1 * u.val = t.val / 16; rw [hi.1]; omega
  | ⟨1, _⟩ => show win0_0.index t 1 * 256 + 1 * ch.val = ch.val; rw [hi.2.1]; omega
  | ⟨2, _⟩ => show win0_0.index t 2 * 4096 + 1 * n.val = n.val; rw [hi.2.2]; omega

/-- Window 1's block index is (0, 0) at every point, -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- so its block is its whole array. -/
theorem iblk1_eq (c : Dev nD) (t : Fin cfg0.N) : (iblk m c 1 t : Vec F S256x256 .f32) = V m c main_arg1 := by
  have hi := index1 t
  funext y
  unfold iblk
  rw [View.read_apply]
  show V m c main_arg1 _ = V m c main_arg1 y
  congr 1
  funext a
  apply Fin.ext
  match a with
  | ⟨0, _⟩ => show win0_1.index t 0 * 256 + 1 * (y 0).val = (y 0).val; rw [hi.1]; omega
  | ⟨1, _⟩ => show win0_1.index t 1 * 256 + 1 * (y 1).val = (y 1).val; rw [hi.2]; omega

/-- Window 2's block index is (0, 0) at every point, -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- so its block is its whole array. -/
theorem iblk2_eq (c : Dev nD) (t : Fin cfg0.N) : (iblk m c 2 t : Vec F S1x256 .f32) = V m c main_v1 := by
  have hi := index2 t
  funext y
  unfold iblk
  rw [View.read_apply]
  show V m c main_v1 _ = V m c main_v1 y
  congr 1
  funext a
  apply Fin.ext
  match a with
  | ⟨0, _⟩ => show win0_2.index t 0 * 1 + 1 * (y 0).val = (y 0).val; rw [hi.1]; omega
  | ⟨1, _⟩ => show win0_2.index t 1 * 256 + 1 * (y 1).val = (y 1).val; rw [hi.2]; omega

/-- Window 3's block index is (0, 0) at every point, -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- so its block is its whole array. -/
theorem iblk3_eq (c : Dev nD) (t : Fin cfg0.N) : (iblk m c 3 t : Vec F S256x256 .f32) = V m c main_arg3 := by
  have hi := index3 t
  funext y
  unfold iblk
  rw [View.read_apply]
  show V m c main_arg3 _ = V m c main_arg3 y
  congr 1
  funext a
  apply Fin.ext
  match a with
  | ⟨0, _⟩ => show win0_3.index t 0 * 256 + 1 * (y 0).val = (y 0).val; rw [hi.1]; omega
  | ⟨1, _⟩ => show win0_3.index t 1 * 256 + 1 * (y 1).val = (y 1).val; rw [hi.2]; omega

/-- Window 4's block index is (0, 0) at every point, -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- so its block is its whole array. -/
theorem iblk4_eq (c : Dev nD) (t : Fin cfg0.N) : (iblk m c 4 t : Vec F S1x256 .f32) = V m c main_v2 := by
  have hi := index4 t
  funext y
  unfold iblk
  rw [View.read_apply]
  show V m c main_v2 _ = V m c main_v2 y
  congr 1
  funext a
  apply Fin.ext
  match a with
  | ⟨0, _⟩ => show win0_4.index t 0 * 1 + 1 * (y 0).val = (y 0).val; rw [hi.1]; omega
  | ⟨1, _⟩ => show win0_4.index t 1 * 256 + 1 * (y 1).val = (y 1).val; rw [hi.2]; omega

/-- Window 5's block index is (0, 0) at every point, -/
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- so its block is its whole array. -/
theorem iblk5_eq (c : Dev nD) (t : Fin cfg0.N) : (iblk m c 5 t : Vec F S256x256 .f32) = V m c main_arg5 := by
  have hi := index5 t
  funext y
  unfold iblk
  rw [View.read_apply]
  show V m c main_arg5 _ = V m c main_arg5 y
  congr 1
  funext a
  apply Fin.ext
  match a with
  | ⟨0, _⟩ => show win0_5.index t 0 * 256 + 1 * (y 0).val = (y 0).val; rw [hi.1]; omega
  | ⟨1, _⟩ => show win0_5.index t 1 * 256 + 1 * (y 1).val = (y 1).val; rw [hi.2]; omega

/-- Window 6's block index is (0, 0) at every point, -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- so its block is its whole array. -/
theorem iblk6_eq (c : Dev nD) (t : Fin cfg0.N) : (iblk m c 6 t : Vec F S1x256 .f32) = V m c main_v3 := by
  have hi := index6 t
  funext y
  unfold iblk
  rw [View.read_apply]
  show V m c main_v3 _ = V m c main_v3 y
  congr 1
  funext a
  apply Fin.ext
  match a with
  | ⟨0, _⟩ => show win0_6.index t 0 * 1 + 1 * (y 0).val = (y 0).val; rw [hi.1]; omega
  | ⟨1, _⟩ => show win0_6.index t 1 * 256 + 1 * (y 1).val = (y 1).val; rw [hi.2]; omega

/-- Window 7's block index is (0, 0) at every point, -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- so its block is its whole array. -/
theorem iblk7_eq (c : Dev nD) (t : Fin cfg0.N) : (iblk m c 7 t : Vec F S1x1 .f32) = V m c main_v4 := by
  have hi := index7 t
  funext y
  unfold iblk
  rw [View.read_apply]
  show V m c main_v4 _ = V m c main_v4 y
  congr 1
  funext a
  apply Fin.ext
  match a with
  | ⟨0, _⟩ => show win0_7.index t 0 * 1 + 1 * (y 0).val = (y 0).val; rw [hi.1]; omega
  | ⟨1, _⟩ => show win0_7.index t 1 * 1 + 1 * (y 1).val = (y 1).val; rw [hi.2]; omega

/-- The output window's block index at point t is (image, 0, query tile). -/
theorem index8 : ∀ t : Fin cfg0.N, win0_8.index t (0 : Fin 3) = t.val / 16 ∧ win0_8.index t (1 : Fin 3) = 0 ∧ win0_8.index t (2 : Fin 3) = t.val % 16 :=
  (by decide +kernel : ∀ t : Fin grid0.N, win0_8.index t (0 : Fin 3) = t.val / 16 ∧ win0_8.index t (1 : Fin 3) = 0 ∧ win0_8.index t (2 : Fin 3) = t.val % 16)

/-- The grid's second coordinate at point t is its query tile. -/
theorem coords1 : ∀ t : Fin cfg0.N, ((grid0.coords t) 1).val = t.val % 16 :=
  (by decide +kernel : ∀ t : Fin grid0.N, ((grid0.coords t) 1).val = t.val % 16)

/-- The tile the kernel loads for its queries and its residual: tokens 256 j … 256 j + 255 of the image block, for the
    grid's second coordinate j. -/
theorem xtile_apply (i : grid0.Coords) (x0 : Vec F S1x256x4096 .f32) (u : Fin 1) (ch r : Fin 256) :
    View.ld x0 (Rect.unit (s := S1x256x4096) (k0_off1 i) S1x256x256.size (k0_off1_inb i)) (ix3 u ch r)
      = x0 (ix3 (0 : Fin 1) ch ⟨256 * (i 1).val + r.val, by have h : (i 1).val < 16 := (i 1).isLt; have := r.isLt; omega⟩) := by
  have hu : u.val = 0 := by omega
  have ho := k0_off1_eq i
  show x0 _ = x0 _
  congr 1
  funext a
  apply Fin.ext
  match a with
  | ⟨0, _⟩ => show (k0_off1 i) 0 + 1 * u.val = 0; rw [ho]; show 0 + 1 * u.val = 0; omega
  | ⟨1, _⟩ => show (k0_off1 i) 1 + 1 * ch.val = ch.val; rw [ho]; show 0 + 1 * ch.val = ch.val; omega
  | ⟨2, _⟩ => show (k0_off1 i) 2 + 1 * r.val = 256 * (i 1).val + r.val; rw [ho]; show 256 * (i 1).val + 1 * r.val = _; omega

end Cert.Attn.KernelBlocks

end
-- ==== Proof.KernelCases.lean ====
/-
  What the kernel body leaves, case by case, read back as values.

  The grid is (image, query tile). At query tile 0 of an image the body first fills the key and value scratch, 4096 rows
  of 256 channels each, in four stores of 1024 rows: row m of the key scratch is the key projection of token m of the
  image block, Σ_ch x(ch, m) · Wk(o, ch) + bk(o), and likewise the value scratch with Wv, bv; it then computes the
  output tile from the query tile of the image block and the two scratch arrays read back whole. At the other query
  tiles it computes the same output tile from the scratch the point before left.
-/
import proofs.«127185_j33122787787587_2_alg».proof.Proof.Gen.KernelIdeal.Frame
import proofs.«127185_j33122787787587_2_alg».proof.Proof.KernelOps
import proofs.«127185_j33122787787587_2_alg».proof.Proof.Attn
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Attn.KernelCases

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the two control cases leave in the output tile -/

section Generic
variable {F : FTy → Type} [FloatOps F]

/-- A load of the whole buffer after stores reads what the stores left. -/
theorem readCov_whole {sig : RefSig} {κ : Kind} {sp : Space} {S : Shape} {e : EltTy} {Val : EltTy → Type} [∀ e, Nonempty (Val e)]
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- The other query tiles: the output tile from the query tile of the image block and the scratch the point before left. -/
theorem out_B (c : Dev nD) (i : grid0.Coords) (arg2 : Memref sig .tc .vmem S1x256x4096 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256x256 .f32) (harg10 : arg10.IsWhole) (arg11 : Memref sig .tc .vmem S4096x256 .bf16) (harg11 : arg11.IsWhole) (arg12 : Memref sig .tc .vmem S4096x256 .bf16) (harg12 : arg12.IsWhole) (hc : ¬cond0_0 i) (x0 : Vec F S1x256x4096 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x1 .f32) (xs0 xs1 : Vec F S4096x256 .bf16) :
    out0_B_8 c i arg2 harg2 arg3 harg3 arg4 harg4 arg5 harg5 arg6 harg6 arg7 harg7 arg8 harg8 arg9 harg9 arg10 harg10 arg11 harg11 arg12 harg12 hc x0 x1 x2 x3 x4 x5 x6 x7 xs0 xs1
      = k0_pay1 (k0_pay21 (View.ld x0 (Rect.unit (s := S1x256x4096) (k0_off1 i) S1x256x256.size (k0_off1_inb i))))
          (k0_pay22 (View.ld x0 (Rect.unit (s := S1x256x4096) (k0_off1 i) S1x256x256.size (k0_off1_inb i))) x1 x2 xs0 xs1) (k0_pay23 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc x0 x1 x2 x3 x4 x5 x6 x7 xs0 xs1)]
  unfold kernelRun0_B
  dsimp only
  sl_unfold_words
  rw [View.canon_unit_zero hz3]
  simp only [View.readAt_eq_ld, harg2.read_unread, harg3.read_unread, harg4.read_unread, harg9.read_unread, harg11.read_unread, harg12.read_unread,
    View.ld_unit_zero (S := S256x256) hz2, View.ld_unit_zero (S := S1x256) hz2, View.ld_unit_zero (S := S1x1) hz2, View.ld_unit_zero (S := S4096x256) hz2]

/-- Query tile 0 of an image: the same, over the scratch this point has just stored. -/
theorem out_A (c : Dev nD) (i : grid0.Coords) (arg2 : Memref sig .tc .vmem S1x256x4096 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256x256 .f32) (harg10 : arg10.IsWhole) (arg11 : Memref sig .tc .vmem S4096x256 .bf16) (harg11 : arg11.IsWhole) (arg12 : Memref sig .tc .vmem S4096x256 .bf16) (harg12 : arg12.IsWhole) (hc : cond0_0 i) (x0 : Vec F S1x256x4096 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x1 .f32) :
    out0_A_8 c i arg2 harg2 arg3 harg3 arg4 harg4 arg5 harg5 arg6 harg6 arg7 harg7 arg8 harg8 arg9 harg9 arg10 harg10 arg11 harg11 arg12 harg12 hc x0 x1 x2 x3 x4 x5 x6 x7
      = k0_pay1 (k0_pay21 (View.ld x0 (Rect.unit (s := S1x256x4096) (k0_off1 i) S1x256x256.size (k0_off1_inb i))))
          (k0_pay22 (View.ld x0 (Rect.unit (s := S1x256x4096) (k0_off1 i) S1x256x256.size (k0_off1_inb i))) x1 x2
            (sout0_A_0 c i arg2 harg2 arg3 harg3 arg4 harg4 arg5 harg5 arg6 harg6 arg7 harg7 arg8 harg8 arg9 harg9 arg10 harg10 arg11 harg11 arg12 harg12 hc x0 x1 x2 x3 x4 x5 x6 x7) (sout0_A_1 c i arg2 harg2 arg3 harg3 arg4 harg4 arg5 harg5 arg6 harg6 arg7 harg7 arg8 harg8 arg9 harg9 arg10 harg10 arg11 harg11 arg12 harg12 hc x0 x1 x2 x3 x4 x5 x6 x7)) (k0_pay23 x7) := by
  unfold out0_A_8 sout0_A_0 sout0_A_1
  simp only [View.read_writes_junk_eq_canon]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S256x256) hz2, View.ld_unit_zero (S := S1x256) hz2, View.ld_unit_zero (S := S1x1) hz2, readCov_whole (S := S4096x256) _ _ hz2]

end Generic

/-! ## The scratch rows by coordinates, on the extended reals -/

section AtIdeal

open Cert.Attn.KernelOps

theorem pay7_apply (W : Vec Ideal S256x256 .f32) (β : Vec Ideal S1x256 .f32) (chunk : Vec Ideal S1x256x1024 .f32) (r : Fin 1024) (o : Fin 256) :
    k0_pay7 (F := Ideal) W β chunk (ix2 r o)
      = (∑ ch : Fin 256, chunk (ix3 (0 : Fin 1) ch r) * W (ix2 o ch)) + β (ix2 (0 : Fin 1) o) := by
  unfold k0_pay7 k0_pay6 k0_pay2 k0_pay4
  dsimp only
  rw [shapeCast_self, shapeCast_self]
  exact projChunk_apply 1024 chunk W β _ _ r o

theorem pay12_apply (W : Vec Ideal S256x256 .f32) (β : Vec Ideal S1x256 .f32) (chunk : Vec Ideal S1x256x1024 .f32) (r : Fin 1024) (o : Fin 256) :
    k0_pay12 (F := Ideal) (k0_pay11 W β chunk) (ix2 r o)
      = (∑ ch : Fin 256, chunk (ix3 (0 : Fin 1) ch r) * W (ix2 o ch)) + β (ix2 (0 : Fin 1) o) := by
  unfold k0_pay12 k0_pay11 k0_pay9 k0_pay2 k0_pay4
  dsimp only
  rw [shapeCast_self, shapeCast_self]
  exact projChunk_apply 1024 chunk W β _ _ r o

theorem pay15_apply (W : Vec Ideal S256x256 .f32) (β : Vec Ideal S1x256 .f32) (chunk : Vec Ideal S1x256x1024 .f32) (r : Fin 1024) (o : Fin 256) :
    k0_pay15 (F := Ideal) (k0_pay2 W) (k0_pay4 β) chunk (ix2 r o)
      = (∑ ch : Fin 256, chunk (ix3 (0 : Fin 1) ch r) * W (ix2 o ch)) + β (ix2 (0 : Fin 1) o) := by
  unfold k0_pay15 k0_pay14 k0_pay2 k0_pay4
  dsimp only
  rw [shapeCast_self, shapeCast_self]
  exact projChunk_apply 1024 chunk W β _ _ r o

theorem pay19_apply (W : Vec Ideal S256x256 .f32) (β : Vec Ideal S1x256 .f32) (chunk : Vec Ideal S1x256x1024 .f32) (r : Fin 1024) (o : Fin 256) :
    k0_pay19 (F := Ideal) (k0_pay2 W) (k0_pay4 β) chunk (ix2 r o)
      = (∑ ch : Fin 256, chunk (ix3 (0 : Fin 1) ch r) * W (ix2 o ch)) + β (ix2 (0 : Fin 1) o) := by
  unfold k0_pay19 k0_pay17 k0_pay2 k0_pay4
  dsimp only
  rw [shapeCast_self, shapeCast_self]
  exact projChunk_apply 1024 chunk W β _ _ r o

theorem pay8_apply (W : Vec Ideal S256x256 .f32) (β : Vec Ideal S1x256 .f32) (chunk : Vec Ideal S1x256x1024 .f32) (r : Fin 1024) (o : Fin 256) :
    k0_pay8 (F := Ideal) W β chunk (ix2 r o)
      = (∑ ch : Fin 256, chunk (ix3 (0 : Fin 1) ch r) * W (ix2 o ch)) + β (ix2 (0 : Fin 1) o) := by
  unfold k0_pay8 k0_pay6 k0_pay3 k0_pay5
  dsimp only
  rw [shapeCast_self, shapeCast_self]
  exact projChunk_apply 1024 chunk W β _ _ r o

theorem pay13_apply (W : Vec Ideal S256x256 .f32) (β : Vec Ideal S1x256 .f32) (chunk : Vec Ideal S1x256x1024 .f32) (r : Fin 1024) (o : Fin 256) :
    k0_pay13 (F := Ideal) (k0_pay10 W β chunk) (ix2 r o)
      = (∑ ch : Fin 256, chunk (ix3 (0 : Fin 1) ch r) * W (ix2 o ch)) + β (ix2 (0 : Fin 1) o) := by
  unfold k0_pay13 k0_pay10 k0_pay9 k0_pay3 k0_pay5
  dsimp only
  rw [shapeCast_self, shapeCast_self]
  exact projChunk_apply 1024 chunk W β _ _ r o

theorem pay16_apply (W : Vec Ideal S256x256 .f32) (β : Vec Ideal S1x256 .f32) (chunk : Vec Ideal S1x256x1024 .f32) (r : Fin 1024) (o : Fin 256) :
    k0_pay16 (F := Ideal) (k0_pay3 W) (k0_pay5 β) chunk (ix2 r o)
      = (∑ ch : Fin 256, chunk (ix3 (0 : Fin 1) ch r) * W (ix2 o ch)) + β (ix2 (0 : Fin 1) o) := by
  unfold k0_pay16 k0_pay14 k0_pay3 k0_pay5
  dsimp only
  rw [shapeCast_self, shapeCast_self]
  exact projChunk_apply 1024 chunk W β _ _ r o

theorem pay20_apply (W : Vec Ideal S256x256 .f32) (β : Vec Ideal S1x256 .f32) (chunk : Vec Ideal S1x256x1024 .f32) (r : Fin 1024) (o : Fin 256) :
    k0_pay20 (F := Ideal) (k0_pay18 (k0_pay3 W) (k0_pay5 β) chunk) (ix2 r o)
      = (∑ ch : Fin 256, chunk (ix3 (0 : Fin 1) ch r) * W (ix2 o ch)) + β (ix2 (0 : Fin 1) o) := by
  unfold k0_pay20 k0_pay18 k0_pay17 k0_pay3 k0_pay5
  dsimp only
  rw [shapeCast_self, shapeCast_self]
  exact projChunk_apply 1024 chunk W β _ _ r o

/-- Row m, channel o of a projection of the image block: Σ_ch x(ch, m) · W(o, ch) + β(o). -/
def proj (x0 : Vec Ideal S1x256x4096 .f32) (W : Vec Ideal S256x256 .f32) (β : Vec Ideal S1x256 .f32) (y : S4096x256.Idx) : EReal :=
  (∑ ch : Fin 256, x0 (ix3 (0 : Fin 1) ch (y 0)) * W (ix2 (y 1) ch)) + β (ix2 (0 : Fin 1) (y 1))

/-- The image block read through the rectangle of 1024 tokens starting at token t0. -/
theorem ld_chunk (x0 : Vec Ideal S1x256x4096 .f32) (off : Fin 3 → Nat) (inb : ∀ a, off a + S1x256x1024.size a ≤ S1x256x4096.size a)
    (t0 : Nat) (h0 : off 0 = 0) (h1 : off 1 = 0) (h2 : off 2 = t0) (ch : Fin 256) (r : Fin 1024) (m : Fin 4096) (hm : m.val = t0 + r.val) :
    View.ld x0 (Rect.unit (s := S1x256x4096) off S1x256x1024.size inb) (ix3 (0 : Fin 1) ch r) = x0 (ix3 (0 : Fin 1) ch m) := by
  show x0 _ = x0 _
  refine congrArg x0 (funext fun a => Fin.ext ?_)
  match a with
  | ⟨0, _⟩ => show off 0 + 1 * 0 = 0; omega
  | ⟨1, _⟩ => show off 1 + 1 * ch.val = ch.val; omega
  | ⟨2, _⟩ => show off 2 + 1 * r.val = m.val; omega

/-- A stored piece of 1024 rows from row t0 whose payload is the projection of the chunk of tokens from t0 is the block of
    the projection of the whole image block its rectangle names. -/
theorem piece_ok (x0 : Vec Ideal S1x256x4096 .f32) (W : Vec Ideal S256x256 .f32) (β : Vec Ideal S1x256 .f32) (t0 : Nat)
    (offS : Fin 2 → Nat) (inbS : ∀ a, offS a + S1024x256.size a ≤ S4096x256.size a)
    (offX : Fin 3 → Nat) (inbX : ∀ a, offX a + S1x256x1024.size a ≤ S1x256x4096.size a)
    (hS0 : offS 0 = t0) (hS1 : offS 1 = 0) (hX0 : offX 0 = 0) (hX1 : offX 1 = 0) (hX2 : offX 2 = t0)
    (pay : S1024x256.Idx → EReal)
    (hpay : ∀ (r : Fin 1024) (o : Fin 256), pay (ix2 r o)
      = (∑ ch : Fin 256, View.ld x0 (Rect.unit (s := S1x256x4096) offX S1x256x1024.size inbX) (ix3 (0 : Fin 1) ch r) * W (ix2 o ch)) + β (ix2 (0 : Fin 1) o))
    (x : (Rect.unit (s := S4096x256) offS S1024x256.size inbS).shape.Idx) :
    pay x = proj x0 W β ((Rect.unit (s := S4096x256) offS S1024x256.size inbS).emb x) := by
  obtain ⟨r, o, rfl⟩ : ∃ (r : Fin 1024) (o : Fin 256), x = ix2 r o := ⟨x 0, x 1, eq_ix2 x⟩
  have hm : (((Rect.unit (s := S4096x256) offS S1024x256.size inbS).emb (ix2 r o)) 0).val = t0 + r.val := by
    show offS 0 + 1 * r.val = _; omega
  have ho : ((Rect.unit (s := S4096x256) offS S1024x256.size inbS).emb (ix2 r o)) 1 = o :=
    Fin.ext (by show offS 1 + 1 * o.val = _; omega)
  refine (hpay r o).trans ?_
  unfold proj
  rw [ho]
  refine congrArg (· + β (ix2 (0 : Fin 1) o)) (Finset.sum_congr rfl fun ch _ => congrArg (· * W (ix2 o ch)) ?_)
  exact ld_chunk x0 offX inbX t0 hX0 hX1 hX2 ch r _ hm

theorem sout_A_0_apply (c : Dev nD) (i : grid0.Coords) (arg2 : Memref sig .tc .vmem S1x256x4096 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256x256 .f32) (harg10 : arg10.IsWhole) (arg11 : Memref sig .tc .vmem S4096x256 .bf16) (harg11 : arg11.IsWhole) (arg12 : Memref sig .tc .vmem S4096x256 .bf16) (harg12 : arg12.IsWhole) (hc : cond0_0 i) (x0 : Vec Ideal S1x256x4096 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (x7 : Vec Ideal S1x1 .f32) (m : Fin 4096) (o : Fin 256) :
    sout0_A_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 (ix2 m o)
      = (∑ ch : Fin 256, x0 (ix3 (0 : Fin 1) ch m) * x3 (ix2 o ch)) + x4 (ix2 (0 : Fin 1) o) := by
  unfold sout0_A_0
  rw [View.read_writes_junk_eq_canon]
  unfold kernelRun0_A
  dsimp only
  sl_unfold_words
  simp only [View.readAt_eq_ld, harg2.read_unread, harg5.read_unread, harg6.read_unread,
    View.ld_unit_zero (S := S256x256) hz2, View.ld_unit_zero (S := S1x256) hz2]
  refine (View.canon_apply_of_pieces (proj x0 x3 x4) _ ?_ (ix2 m o) ?_).trans rfl
  · intro p hp
    simp only [List.mem_cons, List.mem_singleton, List.not_mem_nil, or_false] at hp
    rcases hp with rfl | rfl | rfl | rfl
    · exact piece_ok x0 x3 x4 3072 ![3072, 0] inb_S4096x256_S1024x256_3072_0 ![0, 0, 3072] inb_S1x256x4096_S1x256x1024_0_0_3072 rfl rfl rfl rfl rfl _ (fun r o => pay19_apply x3 x4 _ r o)
    · exact piece_ok x0 x3 x4 2048 ![2048, 0] inb_S4096x256_S1024x256_2048_0 ![0, 0, 2048] inb_S1x256x4096_S1x256x1024_0_0_2048 rfl rfl rfl rfl rfl _ (fun r o => pay15_apply x3 x4 _ r o)
    · exact piece_ok x0 x3 x4 1024 ![1024, 0] inb_S4096x256_S1024x256_1024_0 ![0, 0, 1024] inb_S1x256x4096_S1x256x1024_0_0_1024 rfl rfl rfl rfl rfl _ (fun r o => pay12_apply x3 x4 _ r o)
    · exact piece_ok x0 x3 x4 0 ![0, 0] inb_S4096x256_S1024x256_0_0 ![0, 0, 0] inb_S1x256x4096_S1x256x1024_0_0_0 rfl rfl rfl rfl rfl _ (fun r o => pay7_apply x3 x4 _ r o)
  · exact View.cover_of_tiledL (s := S4096x256) _ S1024x256.size (by sl_kernel_rfl) _

theorem sout_A_1_apply (c : Dev nD) (i : grid0.Coords) (arg2 : Memref sig .tc .vmem S1x256x4096 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S1x256x256 .f32) (harg10 : arg10.IsWhole) (arg11 : Memref sig .tc .vmem S4096x256 .bf16) (harg11 : arg11.IsWhole) (arg12 : Memref sig .tc .vmem S4096x256 .bf16) (harg12 : arg12.IsWhole) (hc : cond0_0 i) (x0 : Vec Ideal S1x256x4096 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (x7 : Vec Ideal S1x1 .f32) (m : Fin 4096) (o : Fin 256) :
    sout0_A_1 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 (ix2 m o)
      = (∑ ch : Fin 256, x0 (ix3 (0 : Fin 1) ch m) * x5 (ix2 o ch)) + x6 (ix2 (0 : Fin 1) o) := by
  unfold sout0_A_1
  rw [View.read_writes_junk_eq_canon]
  unfold kernelRun0_A
  dsimp only
  sl_unfold_words
  simp only [View.readAt_eq_ld, harg2.read_unread, harg7.read_unread, harg8.read_unread,
    View.ld_unit_zero (S := S256x256) hz2, View.ld_unit_zero (S := S1x256) hz2]
  refine (View.canon_apply_of_pieces (proj x0 x5 x6) _ ?_ (ix2 m o) ?_).trans rfl
  · intro p hp
    simp only [List.mem_cons, List.mem_singleton, List.not_mem_nil, or_false] at hp
    rcases hp with rfl | rfl | rfl | rfl
    · exact piece_ok x0 x5 x6 3072 ![3072, 0] inb_S4096x256_S1024x256_3072_0 ![0, 0, 3072] inb_S1x256x4096_S1x256x1024_0_0_3072 rfl rfl rfl rfl rfl _ (fun r o => pay20_apply x5 x6 _ r o)
    · exact piece_ok x0 x5 x6 2048 ![2048, 0] inb_S4096x256_S1024x256_2048_0 ![0, 0, 2048] inb_S1x256x4096_S1x256x1024_0_0_2048 rfl rfl rfl rfl rfl _ (fun r o => pay16_apply x5 x6 _ r o)
    · exact piece_ok x0 x5 x6 1024 ![1024, 0] inb_S4096x256_S1024x256_1024_0 ![0, 0, 1024] inb_S1x256x4096_S1x256x1024_0_0_1024 rfl rfl rfl rfl rfl _ (fun r o => pay13_apply x5 x6 _ r o)
    · exact piece_ok x0 x5 x6 0 ![0, 0] inb_S4096x256_S1024x256_0_0 ![0, 0, 0] inb_S1x256x4096_S1x256x1024_0_0_0 rfl rfl rfl rfl rfl _ (fun r o => pay8_apply x5 x6 _ r o)
  · exact View.cover_of_tiledL (s := S4096x256) _ S1024x256.size (by sl_kernel_rfl) _

end AtIdeal

end Cert.Attn.KernelCases

end
-- ==== Proof.KernelPay.lean ====
/-
  The kernel's output block read at an index, on the extended reals.

  For one tile of 256 query tokens the kernel projects the tile to query rows, scales them by the word 0x3D800000,
  multiplies them with the 4096 key rows (contracting the channel axis), subtracts from every score its row's maximum
  (a fold of max from the word 0xFF800000, which denotes -∞), exponentiates, multiplies the weights with the value rows,
  divides by the row's sum of weights, transposes to channels × tokens, multiplies by gamma and adds the input tile.
  Read at channel c and token r of the tile this is  x(c, r) + gamma · (the attended token of query row r, channel c),
  the query row being  o ↦ Σ_c' x(c', r) · Wq(o, c') + bq(o).
-/
import proofs.«127185_j33122787787587_2_alg».proof.Proof.Gen.KernelIdeal.Skeleton
import proofs.«127185_j33122787787587_2_alg».proof.Proof.KernelOps
import proofs.«127185_j33122787787587_2_alg».proof.Proof.Attn
import proofs.«127185_j33122787787587_2_alg».proof.Proof.LibMatmul
import proofs.«127185_j33122787787587_2_alg».proof.Proof.LibMatmulNT
import proofs.«127185_j33122787787587_2_alg».proof.Proof.LibKeepdims
import proofs.«127185_j33122787787587_2_alg».proof.Proof.LibMatmulTT
import Idealize.ShloMosaic.Lib.ValueLayout
import Idealize.ShloMosaic.Lib.ValueIdx
import Idealize.ShloMosaic.Lib.Pipeline.Value
import Idealize.ShloMosaic.PureOps.Ideal.Laws

noncomputable section

namespace Cert.Attn.KernelPay

open Cert.KernelIdeal Cert.KernelIdeal.Gen Cert.Attn Cert.Attn.KernelOps Idealize.ShloMosaic Idealize.ShloMosaic.ValueIdx

/-- The word 0xFF800000 denotes -∞. -/
theorem ofBits_neg_inf : Ideal.ofBits .f32 0xFF800000#32 = (⊥ : EReal) := by
  simp [Ideal.ofBits, Ideal.ieee]

/-- The printed dimension numbers of the two products of the attention. -/
theorem dims_scores : dot_S256x256_S4096x256_S256x4096_1_1_0_0_n_n = DotDims.transposedRhs 256 256 4096 := rfl
theorem dims_pv : dot_S256x4096_S4096x256_S256x256_1_0_0_1_n_n = DotDims.plain 256 4096 256 := rfl

/-- The scaled query rows times the key rows: the score of query row r against key row m. -/
theorem score_apply (q : FVec Ideal S256x256 .f32) (K : FVec Ideal S4096x256 .bf16)
    (hb : FTy.bits .bf16 < FTy.bits .f32) (r : Fin 256) (m : Fin 4096) :
    matmul (F := Ideal) (φ₁ := .bf16) (φ₂ := .bf16) dot_S256x256_S4096x256_S256x4096_1_1_0_0_n_n none
        (truncf .bf16 (mulf q (broadcast S256x256 (Scalar.ofBits (F := Ideal) .f32 0x3D800000#32))) hb) K
        (constant S256x4096 .f32 0x00000000#32) (ix2 r m)
      = ∑ o : Fin 256, (q (ix2 r o) * Ideal.ofBits .f32 0x3D800000#32) * K (ix2 m o) := by
  rw [dims_scores]
  exact matmul_transposedRhs_zero_apply 256 256 4096 (φ₁ := .bf16) (φ₂ := .bf16) none
    (truncf .bf16 (mulf q (broadcast S256x256 (Scalar.ofBits (F := Ideal) .f32 0x3D800000#32))) hb) K r m

/-- The row maxima, kept as a column and broadcast back along the rows: at (r, m) the fold of max from -∞ over row r. -/
theorem rowMaxB_apply (S : FVec Ideal S256x4096 .f32) (hr : S256x4096.Reduces [1] S256) (hφ : FKind.Formats .f32)
    (hacc : (0xFF800000#32 : BitVec (FTy.bits .f32)) = FKind.maximumf.neutral .f32 hφ)
    (hc : S256.ShapeCasts S256x1) (hbc : S256x1.Broadcasts S256x4096) (r : Fin 256) (m : Fin 4096) :
    broadcastTo S256x4096 (shapeCast S256x1 (multiReduction .maximumf [1] S256 S 0xFF800000#32 hr hφ hacc) hc) hbc (ix2 r m)
      = (Finset.univ : Finset (Fin 4096)).fold max ⊥ (fun k => S (ix2 r k)) := by
  rw [broadcastTo_a1_ab_apply, shapeCast_a_a1_apply, multiReduction_maximumf_rows_apply, ofBits_neg_inf]

/-- A weight: the exponential of a score less its row's maximum. -/
theorem weight_apply (S : FVec Ideal S256x4096 .f32) (hr : S256x4096.Reduces [1] S256) (hφ : FKind.Formats .f32)
    (hacc : (0xFF800000#32 : BitVec (FTy.bits .f32)) = FKind.maximumf.neutral .f32 hφ)
    (hc : S256.ShapeCasts S256x1) (hbc : S256x1.Broadcasts S256x4096) (r : Fin 256) (m : Fin 4096) :
    exp (subf S (broadcastTo S256x4096 (shapeCast S256x1 (multiReduction .maximumf [1] S256 S 0xFF800000#32 hr hφ hacc) hc) hbc)) (ix2 r m)
      = Ideal.exp (S (ix2 r m) - (Finset.univ : Finset (Fin 4096)).fold max ⊥ (fun k => S (ix2 r k))) := by
  show Ideal.exp (S (ix2 r m) - broadcastTo S256x4096 (shapeCast S256x1 (multiReduction .maximumf [1] S256 S 0xFF800000#32 hr hφ hacc) hc) hbc (ix2 r m)) = _
  rw [rowMaxB_apply]

/-- The row sums, kept as a column and broadcast along the 256 channels: at (r, c) the sum of row r. -/
theorem rowSumB_apply (E : FVec Ideal S256x4096 .f32) (hr : S256x4096.Reduces [1] S256) (hφ : FKind.Formats .f32)
    (hacc : (0x00000000#32 : BitVec (FTy.bits .f32)) = FKind.add.neutral .f32 hφ)
    (hc : S256.ShapeCasts S256x1) (hbc : S256x1.Broadcasts S256x256) (r c : Fin 256) :
    broadcastTo S256x256 (shapeCast S256x1 (multiReduction .add [1] S256 E 0x00000000#32 hr hφ hacc) hc) hbc (ix2 r c)
      = ∑ m : Fin 4096, E (ix2 r m) := by
  rw [broadcastTo_a1_ab_apply, shapeCast_a_a1_apply, multiReduction_add_rows_apply]

/-- The weights times the value rows, at query row r and channel c. -/
theorem pv_apply (E : FVec Ideal S256x4096 .f32) (V : FVec Ideal S4096x256 .bf16)
    (hb : FTy.bits .bf16 < FTy.bits .f32) (r c : Fin 256) :
    matmul (F := Ideal) (φ₁ := .bf16) (φ₂ := .bf16) dot_S256x4096_S4096x256_S256x256_1_0_0_1_n_n none
        (truncf .bf16 E hb) V (constant S256x256 .f32 0x00000000#32) (ix2 r c)
      = ∑ m : Fin 4096, E (ix2 r m) * V (ix2 m c) := by
  rw [dims_pv]
  exact matmul_plain_zero_apply 256 4096 256 (φ₁ := .bf16) (φ₂ := .bf16) none (truncf .bf16 E hb) V r c

/-- A query row of the tile: output channel o of token r is Σ_c' x(c', r) · Wq(o, c') + bq(o). -/
theorem qrow_apply (v6 : FVec Ideal S1x256x256 .f32) (v8 : FVec Ideal S256x256 .f32) (v12 : FVec Ideal S1x256 .f32)
    (hb : FTy.bits .bf16 < FTy.bits .f32) (h1 : S1x256x256.ShapeCasts S256x256) (h2 : S1x256.ShapeCasts S1x256)
    (hbc : S1x256.Broadcasts S256x256) (r o : Fin 256) :
    addf (F := Ideal) (φ := .f32)
        (matmul (F := Ideal) (φ₁ := .bf16) (φ₂ := .bf16) dot_S256x256_S256x256_S256x256_0_1_1_0_n_n none
          (truncf .bf16 (shapeCast S256x256 v6 h1) hb) (truncf .bf16 v8 hb) (constant S256x256 .f32 0x00000000#32))
        (broadcastTo S256x256 (shapeCast S1x256 v12 h2) hbc) (ix2 r o)
      = (∑ c' : Fin 256, v6 (ix3 (0 : Fin 1) c' r) * v8 (ix2 o c')) + v12 (ix2 (0 : Fin 1) o) := by
  rw [dims_proj256]
  refine (projChunk_apply 256 v6 v8 (shapeCast S1x256 v12 h2) h1 hbc r o).trans ?_
  rw [shapeCast_self]

/-- The attended tile, transposed to channels × tokens: at (c, r), arrangement K's formula on row r of the scores. -/
theorem attend_apply (S : FVec Ideal S256x4096 .f32) (V : FVec Ideal S4096x256 .bf16)
    (hr : S256x4096.Reduces [1] S256) (hφ : FKind.Formats .f32)
    (haccM : (0xFF800000#32 : BitVec (FTy.bits .f32)) = FKind.maximumf.neutral .f32 hφ)
    (haccA : (0x00000000#32 : BitVec (FTy.bits .f32)) = FKind.add.neutral .f32 hφ)
    (hc : S256.ShapeCasts S256x1) (hbS : S256x1.Broadcasts S256x4096) (hbO : S256x1.Broadcasts S256x256)
    (hb : FTy.bits .bf16 < FTy.bits .f32) (ht : S256x256.Transposes [1, 0] S256x256) (c r : Fin 256) :
    transpose S256x256 [1, 0]
        (divf
          (matmul (F := Ideal) (φ₁ := .bf16) (φ₂ := .bf16) dot_S256x4096_S4096x256_S256x256_1_0_0_1_n_n none
            (truncf .bf16
              (exp (subf S (broadcastTo S256x4096
                (shapeCast S256x1 (multiReduction .maximumf [1] S256 S 0xFF800000#32 hr hφ haccM) hc) hbS))) hb)
            V (constant S256x256 .f32 0x00000000#32))
          (broadcastTo S256x256
            (shapeCast S256x1
              (multiReduction .add [1] S256
                (exp (subf S (broadcastTo S256x4096
                  (shapeCast S256x1 (multiReduction .maximumf [1] S256 S 0xFF800000#32 hr hφ haccM) hc) hbS)))
                0x00000000#32 hr hφ haccA) hc) hbO))
        ht (ix2 c r)
      = Ideal.div
          (∑ m : Fin 4096, Ideal.exp (S (ix2 r m) - (Finset.univ : Finset (Fin 4096)).fold max ⊥ (fun k => S (ix2 r k)))
            * V (ix2 m c))
          (∑ m : Fin 4096, Ideal.exp (S (ix2 r m) - (Finset.univ : Finset (Fin 4096)).fold max ⊥ (fun k => S (ix2 r k)))) := by
  rw [transpose_ix2_apply, divf_apply, pv_apply, rowSumB_apply]
  refine congrArg₂ Ideal.div (Finset.sum_congr rfl fun m _ => ?_) (Finset.sum_congr rfl fun m _ => ?_)
  · rw [weight_apply]
  · rw [weight_apply]

/-- The residual: the attended tile times gamma plus the input tile, cast back to one image's block. -/
theorem residual_apply (X : FVec Ideal S1x256x256 .f32) (A : FVec Ideal S256x256 .f32) (G : FVec Ideal S1x1 .f32)
    (h1 : S1x256x256.ShapeCasts S256x256) (h2 : S1x1.ShapeCasts S1x1) (hbc : S1x1.Broadcasts S256x256)
    (h3 : S256x256.ShapeCasts S1x256x256) (u : Fin 1) (c r : Fin 256) :
    shapeCast S1x256x256 (addf (shapeCast S256x256 X h1) (mulf (broadcastTo S256x256 (shapeCast S1x1 G h2) hbc) A)) h3
        (ix3 u c r)
      = X (ix3 (0 : Fin 1) c r) + G (ix2 (0 : Fin 1) (0 : Fin 1)) * A (ix2 c r) := by
  rw [shapeCast_ab_1ab_apply, addf_apply, mulf_apply, shapeCast_1ab_ab_apply, shapeCast_self]
  have hG : broadcastTo S256x256 G hbc (ix2 c r) = G (ix2 (0 : Fin 1) (0 : Fin 1)) :=
    broadcastTo_apply G hbc (ix2 c r) (ix2 (0 : Fin 1) (0 : Fin 1)) fun a =>
      match a with
      | ⟨0, _⟩ => rfl
      | ⟨1, _⟩ => rfl
  rw [hG]

/-- The score of query row r of the tile against key row m is arrangement K's score of the projected query row. -/
theorem scoreRow_apply (v6 : FVec Ideal S1x256x256 .f32) (v8 : FVec Ideal S256x256 .f32) (v12 : FVec Ideal S1x256 .f32)
    (v19 : FVec Ideal S4096x256 .bf16)
    (hb : FTy.bits .bf16 < FTy.bits .f32) (h1 : S1x256x256.ShapeCasts S256x256) (h2 : S1x256.ShapeCasts S1x256)
    (hbc : S1x256.Broadcasts S256x256) (r : Fin 256) (m : Fin 4096) :
    matmul (F := Ideal) (φ₁ := .bf16) (φ₂ := .bf16) dot_S256x256_S4096x256_S256x4096_1_1_0_0_n_n none
        (truncf .bf16
          (mulf
            (addf (F := Ideal) (φ := .f32)
              (matmul (F := Ideal) (φ₁ := .bf16) (φ₂ := .bf16) dot_S256x256_S256x256_S256x256_0_1_1_0_n_n none
                (truncf .bf16 (shapeCast S256x256 v6 h1) hb) (truncf .bf16 v8 hb) (constant S256x256 .f32 0x00000000#32))
              (broadcastTo S256x256 (shapeCast S1x256 v12 h2) hbc))
            (broadcast S256x256 (Scalar.ofBits (F := Ideal) .f32 0x3D800000#32))) hb)
        v19 (constant S256x4096 .f32 0x00000000#32) (ix2 r m)
      = scoreKrow (fun o => (∑ c' : Fin 256, v6 (ix3 (0 : Fin 1) c' r) * v8 (ix2 o c')) + v12 (ix2 (0 : Fin 1) o))
          (fun m o => v19 (ix2 m o)) m := by
  refine (score_apply _ v19 hb r m).trans ?_
  unfold scoreKrow
  refine Finset.sum_congr rfl fun o _ => ?_
  rw [qrow_apply]

/-- Arrangement K's formula only depends on the row of scores it reads. -/
theorem div_congr_scores (S : FVec Ideal S256x4096 .f32) (V : FVec Ideal S4096x256 .bf16) (s : Tok → EReal)
    (r c : Fin 256) (hS : ∀ m : Fin 4096, S (ix2 r m) = s m) :
    Ideal.div
        (∑ m : Fin 4096, Ideal.exp (S (ix2 r m) - (Finset.univ : Finset (Fin 4096)).fold max ⊥ (fun k => S (ix2 r k)))
          * V (ix2 m c))
        (∑ m : Fin 4096, Ideal.exp (S (ix2 r m) - (Finset.univ : Finset (Fin 4096)).fold max ⊥ (fun k => S (ix2 r k))))
      = Ideal.div (∑ m : Tok, Ideal.exp (s m - rowMax s) * V (ix2 m c)) (∑ m : Tok, Ideal.exp (s m - rowMax s)) := by
  have e : (fun k : Fin 4096 => S (ix2 r k)) = s := funext hS
  rw [e]
  simp only [hS]
  rfl

/-- The kernel's output block at channel c, token r of the tile. -/
theorem out_pay_apply (v6 : Vec Ideal S1x256x256 .f32) (v8 : Vec Ideal S256x256 .f32) (v12 : Vec Ideal S1x256 .f32) (v19 v20 : Vec Ideal S4096x256 .bf16) (v34 : Vec Ideal S1x1 .f32) (u : Fin 1) (c r : Fin 256) :
    k0_pay1 (F := Ideal) (k0_pay21 v6) (k0_pay22 v6 v8 v12 v19 v20) (k0_pay23 v34) (ix3 u c r)
      = v6 (ix3 (0 : Fin 1) c r) + v34 (ix2 (0 : Fin 1) (0 : Fin 1)) *
          outKrow (fun o => (∑ c' : Fin 256, v6 (ix3 (0 : Fin 1) c' r) * v8 (ix2 o c')) + v12 (ix2 (0 : Fin 1) o))
            (fun m o => v19 (ix2 m o)) (fun m o => v20 (ix2 m o)) c := by
  refine (residual_apply v6 (k0_pay22 v6 v8 v12 v19 v20) v34 _ _ _ _ u c r).trans ?_
  refine congrArg (fun t => v6 (ix3 (0 : Fin 1) c r) + v34 (ix2 (0 : Fin 1) (0 : Fin 1)) * t) ?_
  refine (attend_apply _ v20 _ _ _ _ _ _ _ _ _ c r).trans ?_
  exact div_congr_scores _ v20
    (scoreKrow (fun o => (∑ c' : Fin 256, v6 (ix3 (0 : Fin 1) c' r) * v8 (ix2 o c')) + v12 (ix2 (0 : Fin 1) o))
      (fun m o => v19 (ix2 m o)))
    r c (fun m => scoreRow_apply v6 v8 v12 v19 _ _ _ _ r m)

end Cert.Attn.KernelPay

end
-- ==== Proof.KernelValue.lean ====
/-
  What the kernel leaves in each output tile, by coordinates, on the extended reals.

  The key and value rows of an image are built at the image's first query tile and carried, unchanged, through its
  other fifteen tiles: by induction over the grid's points the carried rows at point t are the projections of image
  t / 16 (the step from a point to the next inside one image keeps the image). With that, every tile is the residual
  plus gamma times arrangement K's attended token of its 256 query rows against all 4096 key and value rows.
-/
import proofs.«127185_j33122787787587_2_alg».proof.Proof.Gen.KernelIdeal.Frame
import proofs.«127185_j33122787787587_2_alg».proof.Proof.Attn
import proofs.«127185_j33122787787587_2_alg».proof.Proof.KernelOps
import proofs.«127185_j33122787787587_2_alg».proof.Proof.KernelBlocks
import proofs.«127185_j33122787787587_2_alg».proof.Proof.KernelCases
import proofs.«127185_j33122787787587_2_alg».proof.Proof.KernelPay
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open Idealize.ShloMosaic.Pipeline (Dat)

namespace Cert.Attn.KernelValue

open Cert.KernelIdeal Cert.KernelIdeal.Gen Cert.Attn Cert.Attn.KernelOps Cert.Attn.KernelBlocks Cert.Attn.KernelCases Cert.Attn.KernelPay

variable (m : (ℓ : Loc nD τ sig) → Buf (Elt Ideal) ℓ)

/-- The arrays the kernel region reads, as functions of an index: the image batch regrouped by tokens, the three weight
    matrices, the three bias rows, gamma. -/
abbrev aX (c : Dev nD) : S8x256x4096.Idx → EReal := V m c main_v0
abbrev aWq (c : Dev nD) : S256x256.Idx → EReal := V m c main_arg1
abbrev aBq (c : Dev nD) : S1x256.Idx → EReal := V m c main_v1
abbrev aWk (c : Dev nD) : S256x256.Idx → EReal := V m c main_arg3
abbrev aBk (c : Dev nD) : S1x256.Idx → EReal := V m c main_v2
abbrev aWv (c : Dev nD) : S256x256.Idx → EReal := V m c main_arg5
abbrev aBv (c : Dev nD) : S1x256.Idx → EReal := V m c main_v3
abbrev aG (c : Dev nD) : S1x1.Idx → EReal := V m c main_v4

/-- Query, key and value rows of image b, from the arrays as the kernel region finds them. -/
def Qarr (c : Dev nD) (b : Fin 8) (n : Tok) (o : Chan) : EReal :=
  (∑ ch : Fin 256, aX m c (ix3 b ch n) * aWq m c (ix2 o ch)) + aBq m c (ix2 (0 : Fin 1) o)
def Karr (c : Dev nD) (b : Fin 8) (n : Tok) (o : Chan) : EReal :=
  (∑ ch : Fin 256, aX m c (ix3 b ch n) * aWk m c (ix2 o ch)) + aBk m c (ix2 (0 : Fin 1) o)
def Varr (c : Dev nD) (b : Fin 8) (n : Tok) (o : Chan) : EReal :=
  (∑ ch : Fin 256, aX m c (ix3 b ch n) * aWv m c (ix2 o ch)) + aBv m c (ix2 (0 : Fin 1) o)

/-- Token r of the query tile of point t. -/
def tokAt (t : Fin cfg0.N) (r : Fin 256) : Tok := ⟨256 * (t.val % 16) + r.val, by have := r.isLt; omega⟩

set_option maxHeartbeats 4000000 in
/-- At an image's first query tile the carried key rows are the key projection of the image, -/
theorem keys_first (c : Dev nD) (t : Fin cfg0.N) (h0 : t.val % 16 = 0) (mm : Fin 4096) (o : Fin 256) :
    (outsAt0 m c t.val t.isLt).2.1 (ix2 mm o) = Karr m c (imgOf t) mm o := by
  refine ((congrFun (congrArg (fun p => p.2.1) (outsAt0_A m c t h0)) (ix2 mm o)).trans
    (sout_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) mm o)).trans ?_
  unfold Karr
  simp only [iblk0_apply, iblk3_eq, iblk4_eq]

set_option maxHeartbeats 4000000 in
/-- and the carried value rows the value projection. -/
theorem values_first (c : Dev nD) (t : Fin cfg0.N) (h0 : t.val % 16 = 0) (mm : Fin 4096) (o : Fin 256) :
    (outsAt0 m c t.val t.isLt).2.2 (ix2 mm o) = Varr m c (imgOf t) mm o := by
  refine ((congrFun (congrArg (fun p => p.2.2) (outsAt0_A m c t h0)) (ix2 mm o)).trans
    (sout_A_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) mm o)).trans ?_
  unfold Varr
  simp only [iblk0_apply, iblk5_eq, iblk6_eq]

/-- At any other tile the carried rows are the rows the point before left. -/
theorem carried (c : Dev nD) (t : Fin cfg0.N) (h0 : ¬t.val % 16 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 :=
  ⟨congrArg (fun p => p.2.1) (outsAt0_B m c t h0), congrArg (fun p => p.2.2) (outsAt0_B m c t h0)⟩

/-- The carried key and value rows after point t are the projections of the point's image: by induction along the
    grid, an image's first tile building them and every other tile keeping them. -/
theorem scratch_eq (c : Dev nD) : ∀ (n : ℕ) (t : Fin cfg0.N), t.val = n → ∀ (mm : Fin 4096) (o : Fin 256),
    (outsAt0 m c t.val t.isLt).2.1 (ix2 mm o) = Karr m c (imgOf t) mm o
      ∧ (outsAt0 m c t.val t.isLt).2.2 (ix2 mm o) = Varr m c (imgOf t) mm o := by
  intro n
  induction n with
  | zero =>
    intro t ht mm o
    have h0 : t.val % 16 = 0 := by rw [ht]
    exact ⟨keys_first m c t h0 mm o, values_first m c t h0 mm o⟩
  | succ k ih =>
    intro t ht mm o
    by_cases h0 : t.val % 16 = 0
    · exact ⟨keys_first m c t h0 mm o, values_first m c t h0 mm o⟩
    · have hlt : t.val - 1 < cfg0.N := Nat.lt_of_le_of_lt (Nat.sub_le _ _) t.isLt
      have hp := ih ⟨t.val - 1, hlt⟩ (by show t.val - 1 = k; omega) mm o
      have himg : imgOf (⟨t.val - 1, hlt⟩ : Fin cfg0.N) = imgOf t := Fin.ext (by show (t.val - 1) / 16 = t.val / 16; omega)
      rw [himg] at hp
      obtain ⟨eK, eV⟩ := carried m c t h0
      exact ⟨(congrFun eK (ix2 mm o)).trans hp.1, (congrFun eV (ix2 mm o)).trans hp.2⟩

/-- Entry (b, ch, n) of the output array: the residual plus gamma times arrangement K's attended token. -/
def Gentry (c : Dev nD) (b : Fin 8) (ch : Fin 256) (n : Tok) : EReal :=
  aX m c (ix3 b ch n) + aG m c (ix2 (0 : Fin 1) (0 : Fin 1)) *
    outKrow (Qarr m c b n) (Karr m c b) (Varr m c b) ch

/-- The tile the kernel loads at point t. -/
abbrev tileOfX (c : Dev nD) (t : Fin cfg0.N) : Vec Ideal S1x256x256 .f32 :=
  View.ld (iblk m c 0 t : Vec Ideal S1x256x4096 .f32) (Rect.unit (s := S1x256x4096) (k0_off1 (grid0.coords t)) S1x256x256.size (k0_off1_inb (grid0.coords t)))

set_option maxHeartbeats 4000000 in
/-- What every point leaves in the output's staging buffer, whichever case it is in: the output payload of the tile
    of the image block, the query weights and bias, the carried key and value rows after this point, and gamma. -/
theorem out_eq (c : Dev nD) (t : Fin cfg0.N) :
    (outsAt0 m c t.val t.isLt).1
      = k0_pay1 (k0_pay21 (tileOfX m c t))
          (k0_pay22 (tileOfX m c t) (iblk m c 1 t) (iblk m c 2 t) (outsAt0 m c t.val t.isLt).2.1 (outsAt0 m c t.val t.isLt).2.2)
          (k0_pay23 (iblk m c 7 t)) := by
  by_cases h0 : t.val % 16 = 0
  · have e := outsAt0_A m c t h0
    rw [congrArg (fun p => p.2.1) e, congrArg (fun p => p.2.2) e]
    exact (congrArg (fun p => p.1) e).trans
      (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t))
  · have e := outsAt0_B m c t h0
    rw [congrArg (fun p => p.2.1) e, congrArg (fun p => p.2.2) e]
    exact (congrArg (fun p => p.1) e).trans
      (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) _ _)

/-- The tile's entries are the image's. -/
theorem tile_entry (c : Dev nD) (t : Fin cfg0.N) (ch' r : Fin 256) :
    tileOfX m c t (ix3 (0 : Fin 1) ch' r) = aX m c (ix3 (imgOf t) ch' (tokAt t r)) := by
  refine (xtile_apply (grid0.coords t) (iblk m c 0 t) (0 : Fin 1) ch' r).trans ?_
  refine (iblk0_apply m c t (0 : Fin 1) ch' _).trans ?_
  exact congrArg (fun n => V m c main_v0 (ix3 (imgOf t) ch' n))
    (Fin.ext (by show 256 * ((grid0.coords t) 1).val + r.val = 256 * (t.val % 16) + r.val; rw [coords1 t]))

/-- The tile of point t by coordinates. -/
theorem tile_value (c : Dev nD) (t : Fin cfg0.N) (u : Fin 1) (ch r : Fin 256) :
    (outsAt0 m c t.val t.isLt).1 (ix3 u ch r) = Gentry m c (imgOf t) ch (tokAt t r) := by
  have hK : (fun (mm : Fin 4096) (o : Fin 256) => (outsAt0 m c t.val t.isLt).2.1 (ix2 mm o)) = Karr m c (imgOf t) :=
    funext fun mm => funext fun o => (scratch_eq m c t.val t rfl mm o).1
  have hV : (fun (mm : Fin 4096) (o : Fin 256) => (outsAt0 m c t.val t.isLt).2.2 (ix2 mm o)) = Varr m c (imgOf t) :=
    funext fun mm => funext fun o => (scratch_eq m c t.val t rfl mm o).2
  have hQ : (fun o : Fin 256 => (∑ c' : Fin 256, tileOfX m c t (ix3 (0 : Fin 1) c' r) * (iblk m c 1 t : Vec Ideal S256x256 .f32) (ix2 o c'))
      + (iblk m c 2 t : Vec Ideal S1x256 .f32) (ix2 (0 : Fin 1) o)) = Qarr m c (imgOf t) (tokAt t r) := by
    funext o
    unfold Qarr
    rw [iblk1_eq, iblk2_eq]
    refine congrArg (· + V m c main_v1 (ix2 (0 : Fin 1) o)) ?_
    exact Finset.sum_congr rfl fun c' _ => by rw [tile_entry]
  refine (congrFun (out_eq m c t) (ix3 u ch r)).trans ?_
  refine (out_pay_apply (tileOfX m c t) (iblk m c 1 t) (iblk m c 2 t) (outsAt0 m c t.val t.isLt).2.1 (outsAt0 m c t.val t.isLt).2.2 (iblk m c 7 t) u ch r).trans ?_
  rw [hK, hV, hQ, tile_entry, iblk7_eq]
  rfl

end Cert.Attn.KernelValue

end
-- ==== Proof.KernelHost.lean ====
/-
  The host operations around the kernel region, read at an index. Before the region the image is reshaped to tokens
  and each bias vector and the one-entry gamma get a leading unit axis; after it the output is reshaped back to the
  image. A reshape reads the operand at the index with the same row-major position.
-/
import proofs.«127185_j33122787787587_2_alg».proof.Proof.Gen.KernelIdeal.Frame
import proofs.«127185_j33122787787587_2_alg».proof.Proof.Attn
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

noncomputable section

namespace Cert.Attn.KernelHost

open Cert.KernelIdeal Cert.KernelIdeal.Gen Cert.Attn Idealize.ShloMosaic Idealize.ShloMosaic.ValueIdx Idealize.ShloMosaic.TcCoe Idealize.SL.Sem

variable {F : FTy → Type} [FloatOps F] (m : (ℓ : Loc nD τ sig) → Buf (Elt F) ℓ)

/-- The token array the region finds is the reshape of the image. -/
theorem V_v0 (c : Dev nD) :
    (V m c main_v0 : S8x256x4096.Idx → Elt F .f32)
      = shapeCast S8x256x4096 (m ((c : Thread nD τ).loc main_arg0)) shapeCasts_S8x256x64x64_S8x256x4096 := by
  show StableHlo.after hostOps0 (fun b => m (c, b)) (Proc.devRef .tc main_v0) = _
  after_results
  rfl

/-- Channel ch of token n of image b is the image at (b, ch, n / 64, n % 64). -/
theorem V_v0_apply (c : Dev nD) (b : Fin 8) (ch : Fin 256) (n : Fin 4096) :
    (V m c main_v0 : S8x256x4096.Idx → Elt F .f32) (ix3 b ch n)
      = (m ((c : Thread nD τ).loc main_arg0) : S8x256x64x64.Idx → Elt F .f32)
          (ix4 b ch ⟨n.val / 64, by have := n.isLt; omega⟩ ⟨n.val % 64, by have := n.isLt; omega⟩) := by
  rw [V_v0]
  refine shapeCast_apply _ _ _ _ ?_
  show (S8x256x64x64.rowMajor _).val = (S8x256x4096.rowMajor _).val
  rw [Shape.rowMajor_val_four, Shape.rowMajor_val_three]
  have hb := b.isLt; have hc := ch.isLt; have hn := n.isLt
  show ((b.val * 256 + ch.val) * 64 + n.val / 64) * 64 + n.val % 64 = (b.val * 256 + ch.val) * 4096 + n.val
  omega

/-- At the ideal instance that entry is the spec's token read of the image. -/
theorem V_v0_tokOf (mI : (ℓ : Loc nD τ sig) → Buf (Elt Ideal) ℓ) (c : Dev nD) (b : Fin 8) (ch : Fin 256) (n : Fin 4096) :
    (V mI c main_v0 : S8x256x4096.Idx → EReal) (ix3 b ch n)
      = tokOf (mI ((c : Thread nD τ).loc main_arg0)) b ch n :=
  V_v0_apply mI c b ch n

/-- The query bias with a leading unit axis. -/
theorem V_v1 (c : Dev nD) :
    (V m c main_v1 : S1x256.Idx → Elt F .f32)
      = shapeCast S1x256 (m ((c : Thread nD τ).loc main_arg2)) shapeCasts_S256_S1x256 := by
  show StableHlo.after hostOps0 (fun b => m (c, b)) (Proc.devRef .tc main_v1) = _
  after_results
  rfl

theorem V_v1_apply (c : Dev nD) (o : Fin 256) :
    (V m c main_v1 : S1x256.Idx → Elt F .f32) (ix2 (0 : Fin 1) o)
      = (m ((c : Thread nD τ).loc main_arg2) : S256.Idx → Elt F .f32) (ix1 o) := by
  rw [V_v1]
  exact shapeCast_a_1a_apply _ _ 0 o

/-- The key bias with a leading unit axis. -/
theorem V_v2 (c : Dev nD) :
    (V m c main_v2 : S1x256.Idx → Elt F .f32)
      = shapeCast S1x256 (m ((c : Thread nD τ).loc main_arg4)) shapeCasts_S256_S1x256 := by
  show StableHlo.after hostOps0 (fun b => m (c, b)) (Proc.devRef .tc main_v2) = _
  after_results
  rfl

theorem V_v2_apply (c : Dev nD) (o : Fin 256) :
    (V m c main_v2 : S1x256.Idx → Elt F .f32) (ix2 (0 : Fin 1) o)
      = (m ((c : Thread nD τ).loc main_arg4) : S256.Idx → Elt F .f32) (ix1 o) := by
  rw [V_v2]
  exact shapeCast_a_1a_apply _ _ 0 o

/-- The value bias with a leading unit axis. -/
theorem V_v3 (c : Dev nD) :
    (V m c main_v3 : S1x256.Idx → Elt F .f32)
      = shapeCast S1x256 (m ((c : Thread nD τ).loc main_arg6)) shapeCasts_S256_S1x256 := by
  show StableHlo.after hostOps0 (fun b => m (c, b)) (Proc.devRef .tc main_v3) = _
  after_results
  rfl

theorem V_v3_apply (c : Dev nD) (o : Fin 256) :
    (V m c main_v3 : S1x256.Idx → Elt F .f32) (ix2 (0 : Fin 1) o)
      = (m ((c : Thread nD τ).loc main_arg6) : S256.Idx → Elt F .f32) (ix1 o) := by
  rw [V_v3]
  exact shapeCast_a_1a_apply _ _ 0 o

/-- The one-entry gamma with a leading unit axis. -/
theorem V_v4 (c : Dev nD) :
    (V m c main_v4 : S1x1.Idx → Elt F .f32)
      = shapeCast S1x1 (m ((c : Thread nD τ).loc main_arg7)) shapeCasts_S1_S1x1 := by
  show StableHlo.after hostOps0 (fun b => m (c, b)) (Proc.devRef .tc main_v4) = _
  after_results
  rfl

theorem V_v4_apply (c : Dev nD) :
    (V m c main_v4 : S1x1.Idx → Elt F .f32) (ix2 (0 : Fin 1) (0 : Fin 1))
      = (m ((c : Thread nD τ).loc main_arg7) : S1.Idx → Elt F .f32) (ix1 (0 : Fin 1)) := by
  rw [V_v4]
  exact shapeCast_a_1a_apply _ _ 0 0

/-- The result array is the reshape of the output window's final array. -/
theorem tail_v6 (c : Dev nD) :
    (Pipeline.afterTail₀ cfgs (dats m) 0 (V0 m) [hostOps1] c main_v6 : S8x256x64x64.Idx → Elt F .f32)
      = shapeCast S8x256x64x64 ((dats m 0 c).arrAt 8 cfg0.N : S8x256x4096.Idx → Elt F .f32)
          shapeCasts_S8x256x4096_S8x256x64x64 := by
  unfold Pipeline.afterTail₀
  show StableHlo.after hostOps1 _ (Proc.devRef .tc main_v6) = _
  after_results
  have e : (Pipeline.withArrays (cfgs 0).spec c (V0 m c) (fun w => (dats m 0 c).arrAt w (cfgs 0).N)
        (Proc.devRef .tc main_v5) : S8x256x4096.Idx → Elt F .f32) = (dats m 0 c).arrAt 8 cfg0.N :=
    Pipeline.withArrays_arr spec0 launch0.win.arr_inj c _ _ 8
  exact congrArg (fun y : S8x256x4096.Idx → Elt F .f32 =>
    shapeCast S8x256x64x64 y shapeCasts_S8x256x4096_S8x256x64x64) e

/-- The result at image position (h, w) is the output array's final entry at the token 64 h + w. -/
theorem tail_v6_apply (c : Dev nD) (b : Fin 8) (ch : Fin 256) (h w : Fin 64) :
    (Pipeline.afterTail₀ cfgs (dats m) 0 (V0 m) [hostOps1] c main_v6 : S8x256x64x64.Idx → Elt F .f32) (ix4 b ch h w)
      = ((dats m 0 c).arrAt 8 cfg0.N : S8x256x4096.Idx → Elt F .f32) (ix3 b ch (tokIdx h w)) := by
  rw [tail_v6]
  refine shapeCast_apply _ _ _ _ ?_
  show (S8x256x4096.rowMajor _).val = (S8x256x64x64.rowMajor _).val
  rw [Shape.rowMajor_val_three, Shape.rowMajor_val_four]
  have hb := b.isLt; have hc := ch.isLt; have hh := h.isLt; have hw := w.isLt
  show (b.val * 256 + ch.val) * 4096 + (h.val * 64 + w.val) = ((b.val * 256 + ch.val) * 64 + h.val) * 64 + w.val
  omega

end Cert.Attn.KernelHost

end
-- ==== Proof.KernelArray.lean ====
/-
  From the tiles to the whole result. Point t = 16 b + j writes back tokens 256 j … 256 j + 255 of image b, all
  channels: these blocks tile the [8, 256, 4096] output array, so after the last point every entry (b, ch, n) holds
  its tile's value, the residual plus gamma times arrangement K's attended token. The host then regroups the 4096
  tokens as 64 × 64 positions, and the arrays the kernel region reads are the arguments regrouped (the image as
  [8, 256, 4096], each bias as a row, gamma as a 1 × 1 matrix): so the program's result is arrangement K's result of
  its arguments.
-/
import proofs.«127185_j33122787787587_2_alg».proof.Proof.Gen.KernelIdeal.Frame
import proofs.«127185_j33122787787587_2_alg».proof.Proof.Attn
import proofs.«127185_j33122787787587_2_alg».proof.Proof.KernelOps
import proofs.«127185_j33122787787587_2_alg».proof.Proof.KernelBlocks
import proofs.«127185_j33122787787587_2_alg».proof.Proof.KernelValue
import proofs.«127185_j33122787787587_2_alg».proof.Proof.KernelHost
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open Idealize.ShloMosaic.Pipeline (Dat)

namespace Cert.Attn.KernelArray

open Cert.KernelIdeal Cert.KernelIdeal.Gen Cert.Attn Cert.Attn.KernelOps Cert.Attn.KernelBlocks Cert.Attn.KernelValue Cert.Attn.KernelHost

variable (m : (ℓ : Loc nD τ sig) → Buf (Elt Ideal) ℓ) (ρ : Dev nD → PrngReg)

/-- The output array as one function of the arrays the region reads. -/
def Garr (c : Dev nD) : S8x256x4096.Idx → EReal := fun i => Gentry m c (i 0) (i 1) (i 2)

/-- The output block of point t sits at image t / 16, tokens 256 (t % 16) + r. -/
theorem emb8 (t : Fin cfg0.N) (u : Fin 1) (ch r : Fin 256) :
    ((cfg0.win 8).blk t).view.emb (ix3 u ch r) = ix3 (imgOf t) ch (tokAt t r) := by
  have hi := index8 t
  have hu : u.val = 0 := by omega
  funext a
  apply Fin.ext
  match a with
  | ⟨0, _⟩ => show win0_8.index t 0 * 1 + 1 * u.val = t.val / 16; rw [hi.1]; omega
  | ⟨1, _⟩ => show win0_8.index t 1 * 256 + 1 * ch.val = ch.val; rw [hi.2.1]; omega
  | ⟨2, _⟩ => show win0_8.index t 2 * 256 + 1 * r.val = 256 * (t.val % 16) + r.val; rw [hi.2.2]; omega

/-- What point t writes back is block t of that function. -/
theorem flushed8_eq (c : Dev nD) (t : Fin cfg0.N) :
    (dats m 0 c).flushed 8 t = ((cfg0.win 8).blk t).view.read (Elt Ideal) (Garr m c) := by
  show (cfg0.win 8).cut (grid0.coords t) ((dats m 0 c).after 8 t) = _
  rw [after0_8]
  funext j
  obtain ⟨u, ch, r, rfl⟩ : ∃ (u : Fin 1) (ch : Fin 256) (r : Fin 256), j = ix3 u ch r := ⟨j 0, j 1, j 2, eq_ix3 j⟩
  show (outsAt0 m c t.val t.isLt).1 (ix3 u ch r) = Garr m c (((cfg0.win 8).blk t).view.emb (ix3 u ch r))
  rw [tile_value, emb8]
  rfl

/-- Every entry of the output array is in the block of the point of its image and query tile. -/
theorem cover8 (i : S8x256x4096.Idx) : ∃ t : Fin cfg0.N, (cfg0.win 8).flush t = true ∧ i ∈ ((cfg0.win 8).blk t).view.set := by
  have h0 : (i 0).val < 8 := (i 0).isLt
  have h1 : (i 1).val < 256 := (i 1).isLt
  have h2 : (i 2).val < 4096 := (i 2).isLt
  have hN : cfg0.N = 128 := N_0
  let t : Fin cfg0.N := ⟨16 * (i 0).val + (i 2).val / 256, by rw [hN]; omega⟩
  have hi := index8 t
  have ht : t.val = 16 * (i 0).val + (i 2).val / 256 := rfl
  refine ⟨t, flush0_8 t, ?_⟩
  show i ∈ ((View.whole main_v5).slice (win0_8.rect t)).set
  rw [View.set_slice_whole, Rect.mem_set_unit]
  intro a
  match a with
  | ⟨0, _⟩ => show win0_8.index t 0 * 1 ≤ (i 0).val ∧ (i 0).val < win0_8.index t 0 * 1 + 1; rw [hi.1]; omega
  | ⟨1, _⟩ => show win0_8.index t 1 * 256 ≤ (i 1).val ∧ (i 1).val < win0_8.index t 1 * 256 + 256; rw [hi.2.1]; omega
  | ⟨2, _⟩ => show win0_8.index t 2 * 256 ≤ (i 2).val ∧ (i 2).val < win0_8.index t 2 * 256 + 256; rw [hi.2.2]; omega

/-- So the output array ends holding that function. -/
theorem final8 (c : Dev nD) : (dats m 0 c).arrAt 8 cfg0.N = Garr m c :=
  (dats m 0 c).arrAt_eq_of_cover 8 (Garr m c) (fun t _ => flushed8_eq m c t) cover8

/-- The query, key and value rows the region reads are the projections of the arguments. -/
theorem Qarr_eq (c : Dev nD) (b : Fin 8) (n : Tok) (o : Chan) :
    Qarr m c b n o = proj (tokOf (m ((c.tc : Thread nD τ).loc main_arg0)) b) (mat (m ((c.tc : Thread nD τ).loc main_arg1))) (vec (m ((c.tc : Thread nD τ).loc main_arg2))) n o := by
  unfold Qarr proj mat vec
  simp only [V_v0_tokOf m c, V_v1_apply m c, V_main_arg1 m c]
theorem Karr_eq (c : Dev nD) (b : Fin 8) (n : Tok) (o : Chan) :
    Karr m c b n o = proj (tokOf (m ((c.tc : Thread nD τ).loc main_arg0)) b) (mat (m ((c.tc : Thread nD τ).loc main_arg3))) (vec (m ((c.tc : Thread nD τ).loc main_arg4))) n o := by
  unfold Karr proj mat vec
  simp only [V_v0_tokOf m c, V_v2_apply m c, V_main_arg3 m c]
theorem Varr_eq (c : Dev nD) (b : Fin 8) (n : Tok) (o : Chan) :
    Varr m c b n o = proj (tokOf (m ((c.tc : Thread nD τ).loc main_arg0)) b) (mat (m ((c.tc : Thread nD τ).loc main_arg5))) (vec (m ((c.tc : Thread nD τ).loc main_arg6))) n o := by
  unfold Varr proj mat vec
  simp only [V_v0_tokOf m c, V_v3_apply m c, V_main_arg5 m c]

/-- The token of position (h, w) regrouped is the position. -/
theorem tokOf_tokIdx (x : SImg.Idx → EReal) (b : Fin 8) (ch : Fin 256) (h w : Fin 64) :
    tokOf x b ch (tokIdx h w) = x (ix4 b ch h w) := by
  unfold tokOf tokIdx
  refine congrArg x ?_
  have hh := h.isLt
  have hw := w.isLt
  funext a
  apply Fin.ext
  match a with
  | ⟨0, _⟩ => rfl
  | ⟨1, _⟩ => rfl
  | ⟨2, _⟩ => show (h.val * 64 + w.val) / 64 = h.val; omega
  | ⟨3, _⟩ => show (h.val * 64 + w.val) % 64 = w.val; omega

/-- THE RESULT: what the host's last regrouping leaves is arrangement K's result of the arguments. -/
theorem result_eq (c : Dev nD) :
    Pipeline.afterTail₀ cfgs (dats m) 0 (V0 m) [hostOps1] c main_v6 = GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, ch, h, w, rfl⟩ : ∃ (b : Fin 8) (ch : Fin 256) (h w : Fin 64), i = ix4 b ch h w := ⟨i 0, i 1, i 2, i 3, eq_ix4 i⟩
  rw [tail_v6_apply, final8]
  show Gentry m c b ch (tokIdx h w) = _
  unfold Gentry
  have eQ : Qarr m c b (tokIdx h w) = proj (tokOf (m ((c.tc : Thread nD τ).loc main_arg0)) b) (mat (m ((c.tc : Thread nD τ).loc main_arg1))) (vec (m ((c.tc : Thread nD τ).loc main_arg2))) (tokIdx h w) :=
    funext fun o => Qarr_eq m c b (tokIdx h w) o
  have eK : Karr m c b = proj (tokOf (m ((c.tc : Thread nD τ).loc main_arg0)) b) (mat (m ((c.tc : Thread nD τ).loc main_arg3))) (vec (m ((c.tc : Thread nD τ).loc main_arg4))) :=
    funext fun n => funext fun o => Karr_eq m c b n o
  have eV : Varr m c b = proj (tokOf (m ((c.tc : Thread nD τ).loc main_arg0)) b) (mat (m ((c.tc : Thread nD τ).loc main_arg5))) (vec (m ((c.tc : Thread nD τ).loc main_arg6))) :=
    funext fun n => funext fun o => Varr_eq m c b n o
  have e0 : aX m c (ix3 b ch (tokIdx h w)) = m ((c.tc : Thread nD τ).loc main_arg0) (ix4 b ch h w) :=
    (V_v0_tokOf m c b ch (tokIdx h w)).trans (tokOf_tokIdx _ b ch h w)
  have eG : aG m c (ix2 (0 : Fin 1) (0 : Fin 1)) = m ((c.tc : Thread nD τ).loc main_arg7) (ix1 (0 : Fin 1)) := V_v4_apply m c
  rw [eQ, eK, eV, e0, eG]
  rfl

/-- THE KERNEL'S RUN, read: every weakly fair execution terminates with the result array at arrangement K's result of the
    arguments, and the arguments unchanged. -/
theorem kernel_run : θ_run defs (onTc (τ := τ) (main (F := Ideal))) ⟨m, fun _ => 0, ρ⟩ (fun r => ∀ c : Dev nD,
      r.2.mem ((c.tc : Thread nD τ).loc main_v6) = GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v6 (Pipeline.mem_restRefs_of main_v6 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.Attn.KernelArray

end
-- ==== Proof.Claims.lean ====
/-
  The five claims of the certificate.

  The three frames: the two kernel programs run, fault-free, with their arguments unchanged — the generated frames;
  the reference's frame is its generated run with the result dropped. The ideal pass rewrote nothing, so the
  idealization claim is trivial.

  The value claim. On the extended reals the kernel's result array is arrangement K of the attention block (queries
  scaled by 1/16 before the product with the keys; weights normalised after the product with the values) and the
  reference's is arrangement R (scores divided by the square root of 256; weights normalised first), both of the same
  argument arrays. Under the precondition every argument entry is a real number, the three projections are then
  real, the two scores agree (the square root of 256 is 16), every weight is the exponential of a real, hence a
  positive real, the sum of a row's weights is a positive real, and dividing a sum by it is dividing each term:
  the two arrangements are one function.
-/
import proofs.«127185_j33122787787587_2_alg».proof.Defs
import proofs.«127185_j33122787787587_2_alg».proof.Proof.Gen.Kernel.Frame
import proofs.«127185_j33122787787587_2_alg».proof.Proof.Gen.KernelIdeal.Frame
import proofs.«127185_j33122787787587_2_alg».proof.Proof.Gen.ReferenceIdeal.Run
import proofs.«127185_j33122787787587_2_alg».proof.Proof.Gen.ReferenceIdeal.Read
import proofs.«127185_j33122787787587_2_alg».proof.Proof.Gen.Pre_finite_inputs
import proofs.«127185_j33122787787587_2_alg».proof.Proof.Attn
import proofs.«127185_j33122787787587_2_alg».proof.Proof.AttnLaw
import proofs.«127185_j33122787787587_2_alg».proof.Proof.FiniteInputs
import proofs.«127185_j33122787787587_2_alg».proof.Proof.RefSide
import proofs.«127185_j33122787787587_2_alg».proof.Proof.KernelArray

noncomputable section

open Idealize.ShloMosaic Idealize.ShloMosaic.TcCoe Idealize.SL.Sem

namespace Cert.Proof.AttnClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition arrangement K of the kernel's arguments is arrangement R of them. -/
theorem GK_eq_GR_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Attn.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = Cert.Attn.GR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨h0, h1, h2, h3, h4, h5, h6, _⟩ := Cert.Attn.Finite.real_of_pre _ _ _ _ _ _ _ _ (hpre c)
  exact Cert.Attn.GK_eq_GR _ _ _ _ _ _ _ _ h0 h1 h2 h3 h4 h5 h6

theorem algebraic : Cert.algebraic_KernelIdeal_ReferenceIdeal := by
  intro m ρ m' ρ' hpre hagree
  refine ⟨fun c => Cert.Attn.GR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ⟨(h c).1.trans (GK_eq_GR_of_pre m hpre c), (h c).2⟩)
      (Cert.Attn.KernelArray.kernel_run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.Attn.RefSide.reference_eq_GR, (hagree c).1, (hagree c).2.1, (hagree c).2.2.1,
      (hagree c).2.2.2.1, (hagree c).2.2.2.2.1, (hagree c).2.2.2.2.2.1, (hagree c).2.2.2.2.2.2.1, (hagree c).2.2.2.2.2.2.2]

end Cert.Proof.AttnClaims

end
-- ==== Proof.lean ====
/-
  The proof of the certificate's claim for a fused single-head self-attention block over 8 images of 64 × 64
  positions and 256 channels: the three programs' frames, the (trivial) idealization claim, and the equality, on the
  extended reals and under finite inputs, of the kernel's result with the reference's.

  The kernel computes, per image, key and value rows once (four chunks of 1024 tokens, kept for the image's sixteen
  query tiles), and per query tile the scaled queries, the scores against all keys, exponentials less the row maximum,
  the product with the values, a division by the row's sum of weights, and the residual. The reference computes the
  same block with the scores divided by the square root of 256 and the weights normalised before the product. The
  modules: the specification of both arrangements (Attn), the algebra joining them under finiteness (AttnLaw), the
  precondition read as finiteness (FiniteInputs), the reference's stages read as arrangement R (RefSide), and for the
  kernel the payloads at an index (KernelOps, KernelPay), what each control case leaves (KernelCases), how blocks read
  the arrays (KernelBlocks), the carried rows and the tiles over the grid (KernelValue), the host regroupings
  (KernelHost) and the whole result array (KernelArray); the claims are assembled in Claims.
-/
import proofs.«127185_j33122787787587_2_alg».proof.Defs
import proofs.«127185_j33122787787587_2_alg».proof.Proof.Gen.Kernel
import proofs.«127185_j33122787787587_2_alg».proof.Proof.Gen.Kernel.Skeleton
import proofs.«127185_j33122787787587_2_alg».proof.Proof.Gen.Kernel.Launch
import proofs.«127185_j33122787787587_2_alg».proof.Proof.Gen.Kernel.Points
import proofs.«127185_j33122787787587_2_alg».proof.Proof.Gen.Kernel.Frame
import proofs.«127185_j33122787787587_2_alg».proof.Proof.Gen.KernelIdeal
import proofs.«127185_j33122787787587_2_alg».proof.Proof.Gen.KernelIdeal.Skeleton
import proofs.«127185_j33122787787587_2_alg».proof.Proof.Gen.KernelIdeal.Launch
import proofs.«127185_j33122787787587_2_alg».proof.Proof.Gen.KernelIdeal.Points
import proofs.«127185_j33122787787587_2_alg».proof.Proof.Gen.KernelIdeal.Frame
import proofs.«127185_j33122787787587_2_alg».proof.Proof.Gen.ReferenceIdeal
import proofs.«127185_j33122787787587_2_alg».proof.Proof.Gen.ReferenceIdeal.Run
import proofs.«127185_j33122787787587_2_alg».proof.Proof.Gen.ReferenceIdeal.Read
import proofs.«127185_j33122787787587_2_alg».proof.Proof.Gen.Pre_finite_inputs
import proofs.«127185_j33122787787587_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  AttnClaims.frame_k, AttnClaims.frame_ki, AttnClaims.frame_ri, AttnClaims.preserves, AttnClaims.algebraic⟩

end Cert.Proof

end
